-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S4x4096x768 .f32) (main_arg1 : FVec F S64x768 .f32) (main_arg2 : FVec F S64x768 .f32) (main_arg3 : FVec F S64x768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S4x4096x768 : Shape := ⟨3, ![4, 4096, 768]⟩
abbrev S64x768 : Shape := ⟨2, ![64, 768]⟩
abbrev S16384x768 : Shape := ⟨2, ![16384, 768]⟩
abbrev S16384x64 : Shape := ⟨2, ![16384, 64]⟩
abbrev S1024x768 : Shape := ⟨2, ![1024, 768]⟩
abbrev S1024x64 : Shape := ⟨2, ![1024, 64]⟩
abbrev S4x4096x64 : Shape := ⟨3, ![4, 4096, 64]⟩
abbrev S4x512x64 : Shape := ⟨3, ![4, 512, 64]⟩
abbrev S4x512x1 : Shape := ⟨3, ![4, 512, 1]⟩
abbrev S4x512x512 : Shape := ⟨3, ![4, 512, 512]⟩
abbrev S4x512 : Shape := ⟨2, ![4, 512]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S16384x768, .f32⟩
  | .hbm, ⟨5, _⟩ => ⟨S16384x64, .f32⟩
  | .hbm, ⟨6, _⟩ => ⟨S16384x64, .f32⟩
  | .hbm, ⟨7, _⟩ => ⟨S16384x64, .bf16⟩
  | .hbm, ⟨8, _⟩ => ⟨S4x4096x64, .f32⟩
  | .hbm, ⟨9, _⟩ => ⟨S4x4096x64, .f32⟩
  | .hbm, ⟨10, _⟩ => ⟨S4x4096x64, .bf16⟩
  | .hbm, ⟨11, _⟩ => ⟨S4x4096x64, .f32⟩
  | .local _ .vmem, ⟨0, _⟩ => ⟨S1024x768, .f32⟩
  | .local _ .vmem, ⟨1, _⟩ => ⟨S1024x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .bf16⟩
  | .local _ .vmem, ⟨10, _⟩ => ⟨S1024x64, .bf16⟩
  | .local _ .vmem, ⟨11, _⟩ => ⟨S4x512x64, .f32⟩
  | .local _ .vmem, ⟨12, _⟩ => ⟨S4x512x64, .f32⟩
  | .local _ .vmem, ⟨13, _⟩ => ⟨S4x4096x64, .f32⟩
  | .local _ .vmem, ⟨14, _⟩ => ⟨S4x4096x64, .bf16⟩
  | .local _ .vmem, ⟨15, _⟩ => ⟨S4x512x64, .f32⟩
  | .local _ .vmem, ⟨16, _⟩ => ⟨S4x512x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x4096x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x768_S16384x768 : S4x4096x768.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S64x768_S64x768_0_0 : ∀ a, (![0, 0] : Fin 2 → Nat) a + S64x768.size a ≤ S64x768.size a
  h_S64x768 : 0 < S64x768.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  packedbf16_S1024x64_S1024x64_0_0 : (Rect.unit (s := S1024x64) ![0, 0] S1024x64.size inb_S1024x64_S1024x64_0_0).PackedRows (EltTy.packing .bf16)
  shapeCasts_S16384x64_S4x4096x64 : S16384x64.ShapeCasts S4x4096x64
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  inb_S4x4096x64_S4x512x64_0_0_0 : ∀ a, (![0, 0, 0] : Fin 3 → Nat) a + S4x512x64.size a ≤ S4x4096x64.size a
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x512x1_S4x512x64 : S4x512x1.Broadcasts S4x512x64
  inb_S4x4096x64_S4x512x64_0_512_0 : ∀ a, (![0, 512, 0] : Fin 3 → Nat) a + S4x512x64.size a ≤ S4x4096x64.size a
  inb_S4x4096x64_S4x512x64_0_1024_0 : ∀ a, (![0, 1024, 0] : Fin 3 → Nat) a + S4x512x64.size a ≤ S4x4096x64.size a
  inb_S4x4096x64_S4x512x64_0_1536_0 : ∀ a, (![0, 1536, 0] : Fin 3 → Nat) a + S4x512x64.size a ≤ S4x4096x64.size a
  inb_S4x4096x64_S4x512x64_0_2048_0 : ∀ a, (![0, 2048, 0] : Fin 3 → Nat) a + S4x512x64.size a ≤ S4x4096x64.size a
  inb_S4x4096x64_S4x512x64_0_2560_0 : ∀ a, (![0, 2560, 0] : Fin 3 → Nat) a + S4x512x64.size a ≤ S4x4096x64.size a
  inb_S4x4096x64_S4x512x64_0_3072_0 : ∀ a, (![0, 3072, 0] : Fin 3 → Nat) a + S4x512x64.size a ≤ S4x4096x64.size a
  inb_S4x4096x64_S4x512x64_0_3584_0 : ∀ a, (![0, 3584, 0] : Fin 3 → Nat) a + S4x512x64.size a ≤ S4x4096x64.size a
  dot_S1024x768_S64x768_S1024x64_1_1_0_0_n_n_wf : DotDims.WF S1024x768 S64x768 S1024x64 [1] [1] [0] [0] [] []
  dot_S4x512x64_S4x512x64_S4x512x512_2_2_1_1_0_0_wf : DotDims.WF S4x512x64 S4x512x64 S4x512x512 [2] [2] [1] [1] [0] [0]
  dot_S4x512x512_S4x512x64_S4x512x64_2_1_1_2_0_0_wf : DotDims.WF S4x512x512 S4x512x64 S4x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x768.size a ≤ S64x768.size a
  hwx0_3 : ∀ i : grid0.Coords, EltTy.bits .f32 = 32 ∨ (Rect.block (s := S64x768) S64x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S16384x64.size a
  hwx0_6 : ∀ i : grid0.Coords, EltTy.bits .bf16 = 32 ∨ (Rect.block (s := S16384x64) S1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x64.size a ≤ S4x4096x64.size a
  hwx1_0 : ∀ i : grid1.Coords, EltTy.bits .f32 = 32 ∨ (Rect.block (s := S4x4096x64) S4x512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096x64.size a ≤ S4x4096x64.size a
  hwx1_1 : ∀ i : grid1.Coords, EltTy.bits .f32 = 32 ∨ (Rect.block (s := S4x4096x64) S4x4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4096x64.size a ≤ S4x4096x64.size a
  hwx1_2 : ∀ i : grid1.Coords, EltTy.bits .bf16 = 32 ∨ (Rect.block (s := S4x4096x64) S4x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x64.size a ≤ S4x4096x64.size a
  hwx1_3 : ∀ i : grid1.Coords, EltTy.bits .f32 = 32 ∨ (Rect.block (s := S4x4096x64) S4x512x64.size (cc1_transform_3 i) (hinb1_3 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf
def dot_S4x512x64_S4x512x64_S4x512x512_2_2_1_1_0_0 : DotDims S4x512x64 S4x512x64 S4x512x512 where
  lhsContracting := [2]
  rhsContracting := [2]
  lhsNonContracting := [1]
  rhsNonContracting := [1]
  lhsBatch := [0]
  rhsBatch := [0]
  wf := dot_S4x512x64_S4x512x64_S4x512x512_2_2_1_1_0_0_wf
def dot_S4x512x512_S4x512x64_S4x512x64_2_1_1_2_0_0 : DotDims S4x512x512 S4x512x64 S4x512x64 where
  lhsContracting := [2]
  rhsContracting := [1]
  lhsNonContracting := [1]
  rhsNonContracting := [2]
  lhsBatch := [0]
  rhsBatch := [0]
  wf := dot_S4x512x512_S4x512x64_S4x512x64_2_1_1_2_0_0_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S4x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4x4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4x4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S64x768 : Shape := ⟨2, ![64, 768]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x768_S64x768_S4x4096x64_2_1_01_0_n_n_wf : DotDims.WF S4x4096x768 S64x768 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibMatmulTransposed.lean ====
/-
  A matrix product with a transposed right operand, read at an entry. For dimension numbers that contract the left
  operand's axis 1 with the right operand's axis 1 and have no batch axis, the product of an [A, K] and a [B, K] array
  accumulated into the zero splat has, at (p, q), the value  sum over k of lhs (p, k) * rhs (q, k)  on the extended
  reals: the left operand times the transpose of the right one; for any sizes A, K, B and any two float formats of the
  operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulTransposed

/-- The product with the transpose of the right operand, into a zero accumulator, at entry (p, q). -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r1 : (D.rhsIdx (ix2 p q) ((contrEquiv1 D K rfl rfl).symm k) (1 : Fin 2)).val = k.val :=
    (D.rhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulTransposed

end
-- ==== Proof.Region0.lean ====
/-
  The projection kernel's three output arrays, whole.

  The grid has 16 points; point t stages rows 1024·t … 1024·t + 1023 of the [16384, 768] input and the whole of each
  [64, 768] weight matrix, and writes back rows 1024·t … 1024·t + 1023 of each [16384, 64] output.  The body's product
  contracts the 768 columns of the input block's row p with the 768 columns of a weight matrix's row q, so entry (p, q)
  of the block point t writes is entry (1024·t + p, q) of the array  X · Wᵀ .  The 16 blocks tile the rows, so after the
  last point each output array IS  X · Wᵀ  for its weight matrix (the value output's casts to a narrower format and
  back are the identity on the extended reals).
-/
import proofs.«123220_j21371757264929_2_alg».proof.Proof.Gen.KernelIdeal.Frame
import proofs.«123220_j21371757264929_2_alg».proof.Proof.LibMatmulTransposed
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.ValueIdx Idealize.ShloMosaic.TcCoe Idealize.SL.Sem Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Rows of X against rows of W: the array X · Wᵀ. -/
def projRows (X : S16384x768.Idx → EReal) (W : S64x768.Idx → EReal) : S16384x64.Idx → EReal :=
  fun i => ∑ e : Fin 768, X (ix2 (i 0) e) * W (ix2 (i 1) e)

/-- The zero offsets of a whole-block access. -/
theorem hz : (![0, 0] : Fin 2 → Nat) = fun _ => 0 := funext fun a => by fin_cases a <;> rfl

/-- The body's first product at entry (p, q): row p of the input block against row q of the weight matrix. -/
theorem pay2_apply (x0 : Vec Ideal S1024x768 .f32) (x1 : Vec Ideal S64x768 .f32) (p : Fin 1024) (q : Fin 64) :
    k0_pay2 x0 x1 (ix2 p q) = ∑ e : Fin 768, x0 (ix2 p e) * x1 (ix2 q e) := by
  unfold k0_pay2 k0_pay1
  refine (MatmulTransposed.matmul_zero_apply dot_S1024x768_S64x768_S1024x64_1_1_0_0_n_n rfl rfl rfl rfl rfl rfl
    (some .fp32) (shapeCast S1024x768 x0 shapeCasts_S1024x768_S1024x768) x1 p q).trans ?_
  rw [shapeCast_self]

/-- The body's second product at entry (p, q). -/
theorem pay3_apply (x0 : Vec Ideal S1024x768 .f32) (x2 : Vec Ideal S64x768 .f32) (p : Fin 1024) (q : Fin 64) :
    k0_pay3 x0 x2 (ix2 p q) = ∑ e : Fin 768, x0 (ix2 p e) * x2 (ix2 q e) := by
  unfold k0_pay3 k0_pay1
  refine (MatmulTransposed.matmul_zero_apply dot_S1024x768_S64x768_S1024x64_1_1_0_0_n_n rfl rfl rfl rfl rfl rfl
    (some .fp32) (shapeCast S1024x768 x0 shapeCasts_S1024x768_S1024x768) x2 p q).trans ?_
  rw [shapeCast_self]

/-- The body's third product at entry (p, q): the casts to the narrower format are the identity on the extended reals. -/
theorem pay4_apply (x0 : Vec Ideal S1024x768 .f32) (x3 : Vec Ideal S64x768 .f32) (p : Fin 1024) (q : Fin 64) :
    k0_pay4 x0 x3 (ix2 p q) = ∑ e : Fin 768, x0 (ix2 p e) * x3 (ix2 q e) := by
  unfold k0_pay4 k0_pay1
  refine (MatmulTransposed.matmul_zero_apply dot_S1024x768_S64x768_S1024x64_1_1_0_0_n_n rfl rfl rfl rfl rfl rfl
    none (truncf .bf16 (shapeCast S1024x768 x0 shapeCasts_S1024x768_S1024x768) bitsLt_bf16_f32)
    (truncf .bf16 x3 bitsLt_bf16_f32) p q).trans ?_
  rw [shapeCast_self]
  rfl

/-! ## The query output -/

/-- The printed index maps, decided over the 16 points: the input block moves with the output block along the rows,
    every other block index is 0, and the output's row-block index is at most 15. -/
theorem idx_facts4 : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = 0
    ∧ win0_4.index t (1 : Fin 2) = 0
    ∧ win0_4.index t (0 : Fin 2) ≤ 15 :=
  (by decide +kernel : ∀ t : Fin grid0.N, _)

/-- Every one of the 16 row blocks is some point's. -/
theorem idx_onto4 : ∀ q0 : Fin 16, ∃ t : Fin cfg0.N, win0_4.index t = ![q0.val, 0] :=
  (by decide +kernel : ∀ q0 : Fin 16, ∃ t : Fin grid0.N, win0_4.index t = ![q0.val, 0])

/-- What point `t` writes back is block `t` of the array X · Wᵀ. -/
theorem flushed4_eq (c : Dev nD) (t : Fin cfg0.N) :
    (dat0 (F := Ideal) V c).flushed 4 t
      = ((cfg0.win 4).blk t).view.read (Elt Ideal) (projRows (V c main_v0) (V c main_arg1)) := by
  show (cfg0.win 4).cut (grid0.coords t) ((dat0 (F := Ideal) V c).after 4 t) = _
  rw [after0_4]
  unfold out0_4
  rw [View.canon_unit_zero hz]
  simp only [View.ld_unit_zero (S := S1024x768) hz, View.ld_unit_zero (S := S64x768) hz]
  obtain ⟨e0, e1, e2, e3, e4, e5⟩ := idx_facts4 t
  funext j
  obtain ⟨p, q, rfl⟩ : ∃ (p : Fin 1024) (q : Fin 64), j = ix2 p q := ⟨j 0, j 1, eq_ix2 j⟩
  refine (pay2_apply _ _ p q).trans ?_
  rw [View.read_apply]
  unfold projRows
  refine Finset.sum_congr rfl fun e _ => ?_
  refine congrArg₂ (fun x y : EReal => x * y) ?_ ?_
  · show V c main_v0 (((cfg0.win 0).blk t).view.emb (ix2 p e)) = _
    refine congrArg (V c main_v0) ?_
    funext a; apply Fin.ext
    match a with
    | ⟨0, _⟩ =>
      show win0_0.index t (0 : Fin 2) * 1024 + 1 * p.val = win0_4.index t (0 : Fin 2) * 1024 + 1 * p.val
      omega
    | ⟨1, _⟩ =>
      show win0_0.index t (1 : Fin 2) * 768 + 1 * e.val = e.val
      omega
  · show V c main_arg1 (((cfg0.win 1).blk t).view.emb (ix2 q e)) = _
    refine congrArg (V c main_arg1) ?_
    funext a; apply Fin.ext
    match a with
    | ⟨0, _⟩ =>
      show win0_1.index t (0 : Fin 2) * 64 + 1 * q.val = win0_4.index t (1 : Fin 2) * 64 + 1 * q.val
      omega
    | ⟨1, _⟩ =>
      show win0_1.index t (1 : Fin 2) * 768 + 1 * e.val = e.val
      omega

/-- An index of the array is in point `t`'s block iff each coordinate is in the block's range on its axis. -/
theorem mem_blk4 (t : Fin cfg0.N) (i : S16384x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v1_0).slice (win0_4.rect t)).set ↔ _
  rw [View.set_slice_whole, Rect.mem_set_unit]
  exact Iff.rfl

/-- The 16 blocks cover the array: row r is in the block of the point whose row-block index is r / 1024. -/
theorem cover4 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  obtain ⟨t, ht⟩ := idx_onto4 ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 64 ≤ (i 1).val ∧ (i 1).val < win0_4.index t (1 : Fin 2) * 64 + 64
    omega

/-- The query output array after the region. -/
theorem final4 (c : Dev nD) : (dat0 (F := Ideal) V c).arrAt 4 cfg0.N = projRows (V c main_v0) (V c main_arg1) := by
  exact (dat0 (F := Ideal) V c).arrAt_eq_of_cover 4 (projRows (V c main_v0) (V c main_arg1))
    (fun t _ => flushed4_eq V c t) cover4

/-! ## The key output -/

/-- The printed index maps, decided over the 16 points: the input block moves with the output block along the rows,
    every other block index is 0, and the output's row-block index is at most 15. -/
theorem idx_facts5 : ∀ t : Fin cfg0.N, win0_0.index t (0 : Fin 2) = win0_5.index t (0 : Fin 2)
    ∧ win0_0.index t (1 : Fin 2) = 0
    ∧ win0_2.index t (0 : Fin 2) = 0
    ∧ win0_2.index t (1 : Fin 2) = 0
    ∧ win0_5.index t (1 : Fin 2) = 0
    ∧ win0_5.index t (0 : Fin 2) ≤ 15 :=
  (by decide +kernel : ∀ t : Fin grid0.N, _)

/-- Every one of the 16 row blocks is some point's. -/
theorem idx_onto5 : ∀ q0 : Fin 16, ∃ t : Fin cfg0.N, win0_5.index t = ![q0.val, 0] :=
  (by decide +kernel : ∀ q0 : Fin 16, ∃ t : Fin grid0.N, win0_5.index t = ![q0.val, 0])

/-- What point `t` writes back is block `t` of the array X · Wᵀ. -/
theorem flushed5_eq (c : Dev nD) (t : Fin cfg0.N) :
    (dat0 (F := Ideal) V c).flushed 5 t
      = ((cfg0.win 5).blk t).view.read (Elt Ideal) (projRows (V c main_v0) (V c main_arg2)) := by
  show (cfg0.win 5).cut (grid0.coords t) ((dat0 (F := Ideal) V c).after 5 t) = _
  rw [after0_5]
  unfold out0_5
  rw [View.canon_unit_zero hz]
  simp only [View.ld_unit_zero (S := S1024x768) hz, View.ld_unit_zero (S := S64x768) hz]
  obtain ⟨e0, e1, e2, e3, e4, e5⟩ := idx_facts5 t
  funext j
  obtain ⟨p, q, rfl⟩ : ∃ (p : Fin 1024) (q : Fin 64), j = ix2 p q := ⟨j 0, j 1, eq_ix2 j⟩
  refine (pay3_apply _ _ p q).trans ?_
  rw [View.read_apply]
  unfold projRows
  refine Finset.sum_congr rfl fun e _ => ?_
  refine congrArg₂ (fun x y : EReal => x * y) ?_ ?_
  · show V c main_v0 (((cfg0.win 0).blk t).view.emb (ix2 p e)) = _
    refine congrArg (V c main_v0) ?_
    funext a; apply Fin.ext
    match a with
    | ⟨0, _⟩ =>
      show win0_0.index t (0 : Fin 2) * 1024 + 1 * p.val = win0_5.index t (0 : Fin 2) * 1024 + 1 * p.val
      omega
    | ⟨1, _⟩ =>
      show win0_0.index t (1 : Fin 2) * 768 + 1 * e.val = e.val
      omega
  · show V c main_arg2 (((cfg0.win 2).blk t).view.emb (ix2 q e)) = _
    refine congrArg (V c main_arg2) ?_
    funext a; apply Fin.ext
    match a with
    | ⟨0, _⟩ =>
      show win0_2.index t (0 : Fin 2) * 64 + 1 * q.val = win0_5.index t (1 : Fin 2) * 64 + 1 * q.val
      omega
    | ⟨1, _⟩ =>
      show win0_2.index t (1 : Fin 2) * 768 + 1 * e.val = e.val
      omega

/-- An index of the array is in point `t`'s block iff each coordinate is in the block's range on its axis. -/
theorem mem_blk5 (t : Fin cfg0.N) (i : S16384x64.Idx) :
    i ∈ ((cfg0.win 5).blk t).view.set ↔ ∀ a : Fin 2, win0_5.index t a * S1024x64.size a ≤ (i a).val
      ∧ (i a).val < win0_5.index t a * S1024x64.size a + S1024x64.size a := by
  show i ∈ ((View.whole main_v1_1).slice (win0_5.rect t)).set ↔ _
  rw [View.set_slice_whole, Rect.mem_set_unit]
  exact Iff.rfl

/-- The 16 blocks cover the array: row r is in the block of the point whose row-block index is r / 1024. -/
theorem cover5 (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ := idx_onto5 ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 64 ≤ (i 1).val ∧ (i 1).val < win0_5.index t (1 : Fin 2) * 64 + 64
    omega

/-- The key output array after the region. -/
theorem final5 (c : Dev nD) : (dat0 (F := Ideal) V c).arrAt 5 cfg0.N = projRows (V c main_v0) (V c main_arg2) := by
  exact (dat0 (F := Ideal) V c).arrAt_eq_of_cover 5 (projRows (V c main_v0) (V c main_arg2))
    (fun t _ => flushed5_eq V c t) cover5

/-! ## The value output -/

/-- The printed index maps, decided over the 16 points: the input block moves with the output block along the rows,
    every other block index is 0, and the output's row-block index is at most 15. -/
theorem idx_facts6 : ∀ t : Fin cfg0.N, win0_0.index t (0 : Fin 2) = win0_6.index t (0 : Fin 2)
    ∧ win0_0.index t (1 : Fin 2) = 0
    ∧ win0_3.index t (0 : Fin 2) = 0
    ∧ win0_3.index t (1 : Fin 2) = 0
    ∧ win0_6.index t (1 : Fin 2) = 0
    ∧ win0_6.index t (0 : Fin 2) ≤ 15 :=
  (by decide +kernel : ∀ t : Fin grid0.N, _)

/-- Every one of the 16 row blocks is some point's. -/
theorem idx_onto6 : ∀ q0 : Fin 16, ∃ t : Fin cfg0.N, win0_6.index t = ![q0.val, 0] :=
  (by decide +kernel : ∀ q0 : Fin 16, ∃ t : Fin grid0.N, win0_6.index t = ![q0.val, 0])

/-- What point `t` writes back is block `t` of the array X · Wᵀ. -/
theorem flushed6_eq (c : Dev nD) (t : Fin cfg0.N) :
    (dat0 (F := Ideal) V c).flushed 6 t
      = ((cfg0.win 6).blk t).view.read (Elt Ideal) (projRows (V c main_v0) (V c main_arg3)) := by
  show (cfg0.win 6).cut (grid0.coords t) ((dat0 (F := Ideal) V c).after 6 t) = _
  rw [after0_6]
  unfold out0_6
  rw [View.canon_unit_zero hz]
  simp only [View.ld_unit_zero (S := S1024x768) hz, View.ld_unit_zero (S := S64x768) hz]
  obtain ⟨e0, e1, e2, e3, e4, e5⟩ := idx_facts6 t
  funext j
  obtain ⟨p, q, rfl⟩ : ∃ (p : Fin 1024) (q : Fin 64), j = ix2 p q := ⟨j 0, j 1, eq_ix2 j⟩
  refine (pay4_apply _ _ p q).trans ?_
  rw [View.read_apply]
  unfold projRows
  refine Finset.sum_congr rfl fun e _ => ?_
  refine congrArg₂ (fun x y : EReal => x * y) ?_ ?_
  · show V c main_v0 (((cfg0.win 0).blk t).view.emb (ix2 p e)) = _
    refine congrArg (V c main_v0) ?_
    funext a; apply Fin.ext
    match a with
    | ⟨0, _⟩ =>
      show win0_0.index t (0 : Fin 2) * 1024 + 1 * p.val = win0_6.index t (0 : Fin 2) * 1024 + 1 * p.val
      omega
    | ⟨1, _⟩ =>
      show win0_0.index t (1 : Fin 2) * 768 + 1 * e.val = e.val
      omega
  · show V c main_arg3 (((cfg0.win 3).blk t).view.emb (ix2 q e)) = _
    refine congrArg (V c main_arg3) ?_
    funext a; apply Fin.ext
    match a with
    | ⟨0, _⟩ =>
      show win0_3.index t (0 : Fin 2) * 64 + 1 * q.val = win0_6.index t (1 : Fin 2) * 64 + 1 * q.val
      omega
    | ⟨1, _⟩ =>
      show win0_3.index t (1 : Fin 2) * 768 + 1 * e.val = e.val
      omega

/-- An index of the array is in point `t`'s block iff each coordinate is in the block's range on its axis. -/
theorem mem_blk6 (t : Fin cfg0.N) (i : S16384x64.Idx) :
    i ∈ ((cfg0.win 6).blk t).view.set ↔ ∀ a : Fin 2, win0_6.index t a * S1024x64.size a ≤ (i a).val
      ∧ (i a).val < win0_6.index t a * S1024x64.size a + S1024x64.size a := by
  show i ∈ ((View.whole main_v1_2).slice (win0_6.rect t)).set ↔ _
  rw [View.set_slice_whole, Rect.mem_set_unit]
  exact Iff.rfl

/-- The 16 blocks cover the array: row r is in the block of the point whose row-block index is r / 1024. -/
theorem cover6 (i : S16384x64.Idx) :
    ∃ t : Fin cfg0.N, (cfg0.win 6).flush t = true ∧ i ∈ ((cfg0.win 6).blk t).view.set := by
  have hi0 : (i 0).val < 16384 := (i 0).isLt
  have hi1 : (i 1).val < 64 := (i 1).isLt
  obtain ⟨t, ht⟩ := idx_onto6 ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 64 ≤ (i 1).val ∧ (i 1).val < win0_6.index t (1 : Fin 2) * 64 + 64
    omega

/-- The value output array after the region. -/
theorem final6 (c : Dev nD) : (dat0 (F := Ideal) V c).arrAt 6 cfg0.N = projRows (V c main_v0) (V c main_arg3) := by
  exact (dat0 (F := Ideal) V c).arrAt_eq_of_cover 6 (projRows (V c main_v0) (V c main_arg3))
    (fun t _ => flushed6_eq V c t) cover6

end Cert.KernelIdeal.Region0

end
-- ==== Proof.AttnBlock.lean ====
/-
  The attention block as eight steps of one tile operation.

  For a block of 512 query rows in each of the 4 batches, the body walks over the 4096 keys in eight tiles of 512.
  It keeps, per query row, the largest score met so far  m  (from -∞), the sum  l  of the exponentials of the scores
  relative to  m , and per query row and feature the sum  acc  of those exponentials times the value rows.  One tile:
  the scores  s = ⌊(q · kᵀ) · 2⁻³⌋  of the query block against the tile's 512 keys; the new maximum  m' = max m (max_r s) ;
  the rescaling  a = exp (m - m') ; the tile's weights  p = exp (s - m') ;  l' = a · l + Σ_r p ;  acc' = a · acc + p · v .
  After the eighth tile the block is  acc / l .  This file writes that step ONCE, for whole vectors and any number
  format, composes it eight times over the eight key and value tiles, and records that the body's stored block is
  exactly this composition: the two are the same sequence of operations, grouped differently.
-/
import proofs.«123220_j21371757264929_2_alg».proof.Proof.Gen.KernelIdeal.Frame

set_option maxRecDepth 16384

noncomputable section

namespace Cert.KernelIdeal.Attn

open Idealize.ShloMosaic Idealize.SL.Sem Cert.KernelIdeal Cert.KernelIdeal.Gen

variable {F : FTy → Type} [FloatOps F]

/-- The scores of the query block against one tile of keys: the product contracted over the features, scaled by
    the word of 2⁻³, rounded down. -/
def scores (q : FVec F S4x512x64 .f32) (kT : Vec F S4x512x64 .f32) : FVec F S4x512x512 .f32 :=
  floor (mulf (matmul dot_S4x512x64_S4x512x64_S4x512x512_2_2_1_1_0_0 (some .fp32) q
      (shapeCast S4x512x64 kT shapeCasts_S4x512x64_S4x512x64) (constant S4x512x512 .f32 0x00000000#32))
    (broadcast S4x512x512 (Scalar.ofBits .f32 0x3E000000#32)))

/-- The running maximum raised by a tile's scores. -/
def newMax (m : FVec F S4x512x1 .f32) (s : FVec F S4x512x512 .f32) : FVec F S4x512x1 .f32 :=
  maximumf m (shapeCast S4x512x1
    (multiReduction .maximumf [2] S4x512 s 0xFF800000#32 reduces_S4x512x512_S4x512 (.inl rfl) rfl) shapeCasts_S4x512_S4x512x1)

/-- The factor that moves sums taken relative to the old maximum to the new one. -/
def rescale (m m' : FVec F S4x512x1 .f32) : FVec F S4x512x1 .f32 := exp (subf m m')

/-- The tile's weights: exponentials of the scores relative to the new maximum. -/
def weights (s : FVec F S4x512x512 .f32) (m' : FVec F S4x512x1 .f32) : FVec F S4x512x512 .f32 :=
  exp (subf s (broadcastTo S4x512x512 m' broadcasts_S4x512x1_S4x512x512))

/-- The sum of exponentials: the old one rescaled, plus the tile's weights summed over its keys. -/
def newSum (a l : FVec F S4x512x1 .f32) (p : FVec F S4x512x512 .f32) : FVec F S4x512x1 .f32 :=
  addf (mulf a l) (shapeCast S4x512x1
    (multiReduction .add [2] S4x512 p 0x00000000#32 reduces_S4x512x512_S4x512 (.inl rfl) rfl) shapeCasts_S4x512_S4x512x1)

/-- The weighted sum of value rows: the old one rescaled, plus the tile's weights times its value rows. -/
def newAcc (a : FVec F S4x512x1 .f32) (acc : FVec F S4x512x64 .f32) (p : FVec F S4x512x512 .f32)
    (vT : Vec F S4x512x64 .bf16) : FVec F S4x512x64 .f32 :=
  addf (mulf (broadcastTo S4x512x64 a broadcasts_S4x512x1_S4x512x64) acc)
    (matmul dot_S4x512x512_S4x512x64_S4x512x64_2_1_1_2_0_0 none (truncf .bf16 p bitsLt_bf16_f32)
      (shapeCast S4x512x64 vT shapeCasts_S4x512x64_S4x512x64) (constant S4x512x64 .f32 0x00000000#32))

/-- The three running quantities. -/
abbrev St (F : FTy → Type) : Type := FVec F S4x512x1 .f32 × FVec F S4x512x1 .f32 × FVec F S4x512x64 .f32

/-- One tile. -/
def tile (q : FVec F S4x512x64 .f32) (kT : Vec F S4x512x64 .f32) (vT : Vec F S4x512x64 .bf16) (st : St F) : St F :=
  (newMax st.1 (scores q kT),
   newSum (rescale st.1 (newMax st.1 (scores q kT))) st.2.1 (weights (scores q kT) (newMax st.1 (scores q kT))),
   newAcc (rescale st.1 (newMax st.1 (scores q kT))) st.2.2 (weights (scores q kT) (newMax st.1 (scores q kT))) vT)

/-- Before the first tile: maximum -∞, both sums zero. -/
def st0 : St F :=
  (broadcast S4x512x1 (Scalar.ofBits .f32 0xFF800000#32), broadcast S4x512x1 (Scalar.ofBits .f32 0x00000000#32),
   broadcast S4x512x64 (Scalar.ofBits .f32 0x00000000#32))

/-- The state after all eight tiles of the key array `K` and the value array `V`. -/
def st8 (q : FVec F S4x512x64 .f32) (K : Vec F S4x4096x64 .f32) (V : Vec F S4x4096x64 .bf16) : St F :=
  tile q (View.ld K r1_8) (View.ld V r1_8) (tile q (View.ld K r1_7) (View.ld V r1_7)
    (tile q (View.ld K r1_6) (View.ld V r1_6) (tile q (View.ld K r1_5) (View.ld V r1_5)
      (tile q (View.ld K r1_4) (View.ld V r1_4) (tile q (View.ld K r1_3) (View.ld V r1_3)
        (tile q (View.ld K r1_2) (View.ld V r1_2) (tile q (View.ld K r1_1) (View.ld V r1_1) st0)))))))

/-- The block: weighted sum over sum of exponentials. -/
def block (q0 : Vec F S4x512x64 .f32) (K : Vec F S4x4096x64 .f32) (V : Vec F S4x4096x64 .bf16) : FVec F S4x512x64 .f32 :=
  divf (st8 (shapeCast S4x512x64 q0 shapeCasts_S4x512x64_S4x512x64) K V).2.2
    (broadcastTo S4x512x64 (st8 (shapeCast S4x512x64 q0 shapeCasts_S4x512x64_S4x512x64) K V).2.1 broadcasts_S4x512x1_S4x512x64)

/-- What the body leaves in the output window's buffer is the one store of that block. -/
theorem out_eq_block (x0 : Vec F S4x512x64 .f32) (x1 : Vec F S4x4096x64 .f32) (x2 : Vec F S4x4096x64 .bf16) :
    out1_3 x0 x1 x2 = View.canon [⟨r1_0, block (View.ld x0 r1_0) x1 x2⟩] := rfl

end Cert.KernelIdeal.Attn

end
-- ==== Proof.LibLastAxis.lean ====
/-
  Rank-3 arrays read at an entry along their last axis, on the extended reals and for any sizes.

  For a [G, A, B] array: the sum along the last axis into [G, A] has at (g, p) the sum over k of the entries (g, p, k);
  the maximum along the last axis has there the fold of max, from the accumulator's value, over the same entries.
  A [G, A] array recast to a column [G, A, 1] has at (g, p, 0) the entry (g, p); a column [G, A, 1] repeated along a
  new last axis to [G, A, B] has at (g, p, q) the column's entry (g, p, 0).  A batched matrix product whose right
  operand is transposed — batch axis 0 of both operands, the last axes contracted — of a [G, A, K] and a [G, B, K]
  array into the zero accumulator has at (g, p, q) the sum over k of lhs (g, p, k) * rhs (g, q, k).  A load of a band
  of A consecutive rows, from row o, of every batch of a [G, N, D] array reads at (g, r, d) the entry (g, o + r, d).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.LastAxis

variable {φ : FTy} {G A B : ℕ}

/-- A sum along the last axis of a [G, A, B] array. -/
theorem add_axis2_apply (src : FVec Ideal ⟨3, ![G, A, B]⟩ φ) (acc : BitVec φ.bits)
    (h : (⟨3, ![G, A, B]⟩ : Shape).Reduces [2] ⟨2, ![G, A]⟩) (hφ : FKind.Formats φ) (hacc : acc = FKind.add.neutral φ hφ)
    (g : Fin G) (p : Fin A) :
    multiReduction .add [2] ⟨2, ![G, A]⟩ src acc h hφ hacc (ix2 g p) = ∑ k : Fin B, src (ix3 g p k) := by
  refine (Ideal.multiReduction_add_single src acc h hφ hacc (ix2 g p)).trans ?_
  refine Finset.sum_congr rfl fun k _ => congrArg src (funext fun ax => Fin.ext ?_)
  match ax with
  | ⟨0, _⟩ => rfl
  | ⟨1, _⟩ => rfl
  | ⟨2, _⟩ => rfl

/-- A maximum along the last axis of a [G, A, B] array: the fold of max from the accumulator's value. -/
theorem max_axis2_apply (src : FVec Ideal ⟨3, ![G, A, B]⟩ φ) (acc : BitVec φ.bits)
    (h : (⟨3, ![G, A, B]⟩ : Shape).Reduces [2] ⟨2, ![G, A]⟩) (hφ : FKind.Formats φ) (hacc : acc = FKind.maximumf.neutral φ hφ)
    (g : Fin G) (p : Fin A) :
    multiReduction .maximumf [2] ⟨2, ![G, A]⟩ src acc h hφ hacc (ix2 g p)
      = (Finset.univ : Finset (Fin B)).fold max (FloatOps.ofBits φ acc) (fun k => src (ix3 g p k)) := by
  refine (Ideal.multiReduction_maximumf_single src acc h hφ hacc (ix2 g p)).trans ?_
  refine congrArg (Finset.fold max (FloatOps.ofBits φ acc) · Finset.univ) (funext fun k => congrArg src (funext fun ax => Fin.ext ?_))
  match ax with
  | ⟨0, _⟩ => rfl
  | ⟨1, _⟩ => rfl
  | ⟨2, _⟩ => rfl

variable {α : Type}

/-- [G, A] recast to the column [G, A, 1]: entry (g, p, 0) is entry (g, p). -/
theorem shapeCast_column_apply (x : (⟨2, ![G, A]⟩ : Shape).Idx → α) (h : (⟨2, ![G, A]⟩ : Shape).ShapeCasts ⟨3, ![G, A, 1]⟩)
    (g : Fin G) (p : Fin A) (z : Fin 1) : shapeCast ⟨3, ![G, A, 1]⟩ x h (ix3 g p z) = x (ix2 g p) :=
  shapeCast_apply x h _ _ (by
    rw [Shape.rowMajor_val_two, Shape.rowMajor_val_three]
    show g.val * A + p.val = (g.val * A + p.val) * 1 + z.val
    have := z.isLt
    omega)

/-- A column [G, A, 1] repeated along the last axis to [G, A, B]: entry (g, p, q) is the column's entry (g, p, 0). -/
theorem broadcastTo_column_apply (x : (⟨3, ![G, A, 1]⟩ : Shape).Idx → α) (h : (⟨3, ![G, A, 1]⟩ : Shape).Broadcasts ⟨3, ![G, A, B]⟩)
    (hG : G ≠ 1) (hA : A ≠ 1) (g : Fin G) (p : Fin A) (q : Fin B) :
    broadcastTo ⟨3, ![G, A, B]⟩ x h (ix3 g p q) = x (ix3 g p 0) :=
  broadcastTo_apply x h _ _ (fun a => by
    match a with
    | ⟨0, _⟩ => exact (if_neg hG).symm
    | ⟨1, _⟩ => exact (if_neg hA).symm
    | ⟨2, _⟩ => exact (if_pos rfl).symm)

/-- The batched product with the right operand transposed, into a zero accumulator, at entry (g, p, q). -/
theorem matmul_bt_zero_apply {K : ℕ} {φ₁ φ₂ : FTy}
    (d : DotDims ⟨3, ![G, A, K]⟩ ⟨3, ![G, B, K]⟩ ⟨3, ![G, A, B]⟩)
    (hlc : d.lhsContracting = [2]) (hrc : d.rhsContracting = [2])
    (hln : d.lhsNonContracting = [1]) (hrn : d.rhsNonContracting = [1])
    (hlb : d.lhsBatch = [0]) (hrb : d.rhsBatch = [0])
    (prec : Option ContractPrecision)
    (lhs : FVec Ideal ⟨3, ![G, A, K]⟩ φ₁) (rhs : FVec Ideal ⟨3, ![G, B, K]⟩ φ₂) (g : Fin G) (p : Fin A) (q : Fin B) :
    matmul d prec lhs rhs (constant ⟨3, ![G, A, B]⟩ .f32 0x00000000#32) (ix3 g p q)
      = ∑ k : Fin K, lhs (ix3 g p k) * rhs (ix3 g q k) := by
  obtain ⟨lc, rc, ln, rn, lb, rb, wf⟩ := d
  simp only at hlc hrc hln hrn hlb hrb
  subst hlc hrc hln hrn hlb hrb
  let D : DotDims ⟨3, ![G, A, K]⟩ ⟨3, ![G, B, K]⟩ ⟨3, ![G, A, B]⟩ := ⟨[2], [2], [1], [1], [0], [0], wf⟩
  refine (Ideal.matmul_constant_zero_apply D prec lhs rhs (ix3 g p q)).trans ?_
  rw [← Equiv.sum_comp (contrEquiv1 D K rfl rfl).symm]
  refine Finset.sum_congr rfl fun k _ => ?_
  have hk := contrEquiv1_symm_val D K rfl rfl k
  have l0 : (D.lhsIdx (ix3 g p q) ((contrEquiv1 D K rfl rfl).symm k) (0 : Fin 3)).val = g.val := by
    unfold DotDims.lhsIdx
    rw [dif_pos (show (0 : Fin 3) ∈ ([0] : List (Fin 3)) from List.mem_singleton.mpr rfl)]
    rfl
  have l1 : (D.lhsIdx (ix3 g p q) ((contrEquiv1 D K rfl rfl).symm k) (1 : Fin 3)).val = p.val := by
    unfold DotDims.lhsIdx
    rw [dif_neg (show ¬(1 : Fin 3) ∈ ([0] : List (Fin 3)) from by decide),
      dif_pos (show (1 : Fin 3) ∈ ([1] : List (Fin 3)) from List.mem_singleton.mpr rfl)]
    rfl
  have l2 : (D.lhsIdx (ix3 g p q) ((contrEquiv1 D K rfl rfl).symm k) (2 : Fin 3)).val = k.val :=
    (D.lhsIdx_val_of_single rfl (ix3 g p q) _).trans hk
  have r0 : (D.rhsIdx (ix3 g p q) ((contrEquiv1 D K rfl rfl).symm k) (0 : Fin 3)).val = g.val := by
    unfold DotDims.rhsIdx
    rw [dif_pos (show (0 : Fin 3) ∈ ([0] : List (Fin 3)) from List.mem_singleton.mpr rfl)]
    rfl
  have r1 : (D.rhsIdx (ix3 g p q) ((contrEquiv1 D K rfl rfl).symm k) (1 : Fin 3)).val = q.val := by
    unfold DotDims.rhsIdx
    rw [dif_neg (show ¬(1 : Fin 3) ∈ ([0] : List (Fin 3)) from by decide),
      dif_pos (show (1 : Fin 3) ∈ ([1] : List (Fin 3)) from List.mem_singleton.mpr rfl)]
    rfl
  have r2 : (D.rhsIdx (ix3 g p q) ((contrEquiv1 D K rfl rfl).symm k) (2 : Fin 3)).val = k.val :=
    (D.rhsIdx_val_of_single rfl (ix3 g p q) _).trans hk
  have el : D.lhsIdx (ix3 g p q) ((contrEquiv1 D K rfl rfl).symm k) = ix3 g p k := funext fun a => Fin.ext (by
    match a with
    | ⟨0, _⟩ => exact l0
    | ⟨1, _⟩ => exact l1
    | ⟨2, _⟩ => exact l2)
  have er : D.rhsIdx (ix3 g p q) ((contrEquiv1 D K rfl rfl).symm k) = ix3 g q k := funext fun a => Fin.ext (by
    match a with
    | ⟨0, _⟩ => exact r0
    | ⟨1, _⟩ => exact r1
    | ⟨2, _⟩ => exact r2)
  rw [el, er]

/-- A load of the band of `A` rows from row `o` of every batch of a [G, N, D] array, at (g, r, d). -/
theorem ld_rows_apply {N D : ℕ} {Val : EltTy → Type} {e : EltTy} (X : (⟨3, ![G, N, D]⟩ : Shape).Idx → Val e) (o : ℕ)
    (inb : ∀ a, (![0, o, 0] : Fin 3 → ℕ) a + (⟨3, ![G, A, D]⟩ : Shape).size a ≤ (⟨3, ![G, N, D]⟩ : Shape).size a)
    (g : Fin G) (r : Fin A) (d : Fin D) (R : Fin N) (hR : R.val = o + r.val) :
    View.ld X (Rect.unit (s := ⟨3, ![G, N, D]⟩) ![0, o, 0] (⟨3, ![G, A, D]⟩ : Shape).size inb) (ix3 g r d) = X (ix3 g R d) := by
  refine congrArg X (funext fun a => Fin.ext ?_)
  match a with
  | ⟨0, _⟩ => show 0 + 1 * g.val = g.val; omega
  | ⟨1, _⟩ => show o + 1 * r.val = R.val; omega
  | ⟨2, _⟩ => show 0 + 1 * d.val = d.val; omega

end Cert.Lib.LastAxis

end
-- ==== Proof.LibRowBlocks.lean ====
/-
  Leading axes merged and split, read at an index.  An array of `a` batches of `b` rows of `c` columns and the
  array of its `a·b` rows hold the same entries in the same row-major order: row `p·b + q` of the second is row
  `q` of batch `p` of the first.  A scalar recast to a 1×1 matrix is the scalar.
-/
import Idealize.ShloMosaic.Lib.Pipeline.Value
import Idealize.ShloMosaic.Lib.ValueIdx

namespace Cert.Lib.RowBlocks

open Idealize.ShloMosaic Idealize.ShloMosaic.ValueIdx

variable {α : Type}

/-- `[n, c]` viewed as `[a, b, c]`, `n = a·b`: entry `(p, q, r)` is entry `(p·b + q, r)`. -/
theorem shapeCast_rows_split {n a b c : ℕ} (x : (⟨2, ![n, c]⟩ : Shape).Idx → α)
    (h : (⟨2, ![n, c]⟩ : Shape).ShapeCasts ⟨3, ![a, b, c]⟩) (p : Fin a) (q : Fin b) (r : Fin c) (R : Fin n)
    (hR : R.val = p.val * b + q.val) : shapeCast ⟨3, ![a, b, c]⟩ x h (ix3 p q r) = x (ix2 R r) :=
  shapeCast_apply x h _ _ (by
    rw [Shape.rowMajor_val_two, Shape.rowMajor_val_three]
    show R.val * c + r.val = (p.val * b + q.val) * c + r.val
    rw [hR])

/-- `[a, b, c]` viewed as `[n, c]`, `n = a·b`: entry `(p·b + q, r)` is entry `(p, q, r)`. -/
theorem shapeCast_rows_merge {n a b c : ℕ} (x : (⟨3, ![a, b, c]⟩ : Shape).Idx → α)
    (h : (⟨3, ![a, b, c]⟩ : Shape).ShapeCasts ⟨2, ![n, c]⟩) (p : Fin a) (q : Fin b) (r : Fin c) (R : Fin n)
    (hR : R.val = p.val * b + q.val) : shapeCast ⟨2, ![n, c]⟩ x h (ix2 R r) = x (ix3 p q r) :=
  shapeCast_apply x h _ _ (by
    rw [Shape.rowMajor_val_two, Shape.rowMajor_val_three]
    show (p.val * b + q.val) * c + r.val = R.val * c + r.val
    rw [hR])

/-- A scalar viewed as a 1×1 matrix: its one entry is the scalar. -/
theorem shapeCast_scalar_11 (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 := by
  unfold shapeCast
  exact congrArg x (funext fun d => d.elim0)

end Cert.Lib.RowBlocks
-- ==== Proof.LibBatchProduct.lean ====
/-
  A batched matrix product read at an entry. For dimension numbers with one batch axis (axis 0 of both operands, axis
  0 of the result), contracting the left operand's axis 2 with the right operand's axis 1, the product of a [G, A, K]
  and a [G, K, B] array accumulated into the zero splat has, at `(g, p, q)`, the value
  `∑ k, lhs (g, p, k) * rhs (g, k, q)` on the extended reals: batch `g` of the result is the plain product of batch `g`
  of the operands. For any sizes G, A, K, B and any two float formats of the operands.
  And the aggregation built on it: an [n, D] array of `G·N` rows viewed as `G` batches of `N` rows, multiplied on the left,
  batch by batch, by `G` matrices of shape [N, N], and viewed as `n` rows again: row `g·N + i` of the result is
  `∑ j, A (g, i, j) · (row g·N + j of the array)` — each node's sum over its neighbours within its own batch element.
-/
import Idealize.ShloMosaic.PureOps.Ideal.Laws
import Idealize.ShloMosaic.Lib.ValueIdx
import proofs.«123220_j21371757264929_2_alg».proof.Proof.LibRowBlocks

noncomputable section

open scoped BigOperators
open Idealize.ShloMosaic Idealize.ShloMosaic.ValueIdx

namespace BatchProduct

/-- The batched product into a zero accumulator at entry `(g, p, q)`. -/
theorem matmul_zero_apply {G A K B : Nat} {φ₁ φ₂ : FTy}
    (d : DotDims ⟨3, ![G, A, K]⟩ ⟨3, ![G, K, B]⟩ ⟨3, ![G, A, B]⟩)
    (hlc : d.lhsContracting = [2]) (hrc : d.rhsContracting = [1])
    (hln : d.lhsNonContracting = [1]) (hrn : d.rhsNonContracting = [2])
    (hlb : d.lhsBatch = [0]) (hrb : d.rhsBatch = [0])
    (prec : Option ContractPrecision)
    (lhs : FVec Ideal ⟨3, ![G, A, K]⟩ φ₁) (rhs : FVec Ideal ⟨3, ![G, K, B]⟩ φ₂) (g : Fin G) (p : Fin A) (q : Fin B) :
    matmul d prec lhs rhs (constant ⟨3, ![G, A, B]⟩ .f32 0x00000000#32) (ix3 g p q)
      = ∑ k : Fin K, lhs (ix3 g p k) * rhs (ix3 g k q) := by
  obtain ⟨lc, rc, ln, rn, lb, rb, wf⟩ := d
  simp only at hlc hrc hln hrn hlb hrb
  subst hlc hrc hln hrn hlb hrb
  let D : DotDims ⟨3, ![G, A, K]⟩ ⟨3, ![G, K, B]⟩ ⟨3, ![G, A, B]⟩ := ⟨[2], [1], [1], [2], [0], [0], wf⟩
  refine (Ideal.matmul_constant_zero_apply D prec lhs rhs (ix3 g p q)).trans ?_
  rw [← Equiv.sum_comp (contrEquiv1 D K rfl rfl).symm]
  refine Finset.sum_congr rfl fun k _ => ?_
  have hk := contrEquiv1_symm_val D K rfl rfl k
  have l0 : (D.lhsIdx (ix3 g p q) ((contrEquiv1 D K rfl rfl).symm k) (0 : Fin 3)).val = g.val := by
    unfold DotDims.lhsIdx
    rw [dif_pos (show (0 : Fin 3) ∈ ([0] : List (Fin 3)) from List.mem_singleton.mpr rfl)]
    rfl
  have l1 : (D.lhsIdx (ix3 g p q) ((contrEquiv1 D K rfl rfl).symm k) (1 : Fin 3)).val = p.val := by
    unfold DotDims.lhsIdx
    rw [dif_neg (show ¬(1 : Fin 3) ∈ ([0] : List (Fin 3)) from by decide),
      dif_pos (show (1 : Fin 3) ∈ ([1] : List (Fin 3)) from List.mem_singleton.mpr rfl)]
    rfl
  have l2 : (D.lhsIdx (ix3 g p q) ((contrEquiv1 D K rfl rfl).symm k) (2 : Fin 3)).val = k.val :=
    (D.lhsIdx_val_of_single rfl (ix3 g p q) _).trans hk
  have r0 : (D.rhsIdx (ix3 g p q) ((contrEquiv1 D K rfl rfl).symm k) (0 : Fin 3)).val = g.val := by
    unfold DotDims.rhsIdx
    rw [dif_pos (show (0 : Fin 3) ∈ ([0] : List (Fin 3)) from List.mem_singleton.mpr rfl)]
    rfl
  have r1 : (D.rhsIdx (ix3 g p q) ((contrEquiv1 D K rfl rfl).symm k) (1 : Fin 3)).val = k.val :=
    (D.rhsIdx_val_of_single rfl (ix3 g p q) _).trans hk
  have r2 : (D.rhsIdx (ix3 g p q) ((contrEquiv1 D K rfl rfl).symm k) (2 : Fin 3)).val = q.val := by
    unfold DotDims.rhsIdx
    rw [dif_neg (show ¬(2 : Fin 3) ∈ ([0] : List (Fin 3)) from by decide),
      dif_pos (show (2 : Fin 3) ∈ ([2] : List (Fin 3)) from List.mem_singleton.mpr rfl)]
    rfl
  have el : D.lhsIdx (ix3 g p q) ((contrEquiv1 D K rfl rfl).symm k) = ix3 g p k := funext fun a => Fin.ext (by
    match a with
    | ⟨0, _⟩ => exact l0
    | ⟨1, _⟩ => exact l1
    | ⟨2, _⟩ => exact l2)
  have er : D.rhsIdx (ix3 g p q) ((contrEquiv1 D K rfl rfl).symm k) = ix3 g k q := funext fun a => Fin.ext (by
    match a with
    | ⟨0, _⟩ => exact r0
    | ⟨1, _⟩ => exact r1
    | ⟨2, _⟩ => exact r2)
  rw [el, er]

/-- Neighbour aggregation: rows split into batches, multiplied batch by batch, merged back. -/
theorem aggregate_apply {n G N D : Nat} {φ₁ φ₂ : FTy}
    (d : DotDims ⟨3, ![G, N, N]⟩ ⟨3, ![G, N, D]⟩ ⟨3, ![G, N, D]⟩)
    (hlc : d.lhsContracting = [2]) (hrc : d.rhsContracting = [1])
    (hln : d.lhsNonContracting = [1]) (hrn : d.rhsNonContracting = [2])
    (hlb : d.lhsBatch = [0]) (hrb : d.rhsBatch = [0])
    (A : FVec Ideal ⟨3, ![G, N, N]⟩ φ₁) (M : FVec Ideal ⟨2, ![n, D]⟩ φ₂)
    (hs : (⟨2, ![n, D]⟩ : Shape).ShapeCasts ⟨3, ![G, N, D]⟩) (hm : (⟨3, ![G, N, D]⟩ : Shape).ShapeCasts ⟨2, ![n, D]⟩)
    (g : Fin G) (i : Fin N) (q : Fin D) (P : Fin n) (hP : P.val = g.val * N + i.val)
    (row : Fin N → Fin n) (hrow : ∀ j, (row j).val = g.val * N + j.val) :
    shapeCast ⟨2, ![n, D]⟩ (matmul d none A (shapeCast ⟨3, ![G, N, D]⟩ M hs) (constant ⟨3, ![G, N, D]⟩ .f32 0x00000000#32)) hm (ix2 P q)
      = ∑ j : Fin N, A (ix3 g i j) * M (ix2 (row j) q) := by
  rw [Cert.Lib.RowBlocks.shapeCast_rows_merge _ hm g i q P hP, matmul_zero_apply d hlc hrc hln hrn hlb hrb none _ _ g i q]
  exact Finset.sum_congr rfl fun j _ => congrArg₂ (· * ·) rfl
    (Cert.Lib.RowBlocks.shapeCast_rows_split M hs g j q (row j) (hrow j))

end BatchProduct

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibRealOrder.lean ====
/-
  More about extended reals that are real numbers: order, difference, logarithm.

  Beside products, sums and exponentials (the companion file on real-valued extended reals), a proof that carries
  "this quantity is a real number" through a program also meets negation and difference, the maximum of two reals and
  of finitely many taken from -infinity, the logarithm of a positive real, and a sum of positive reals over a nonempty
  finite index type, which is a POSITIVE real. Last, the one law of subtraction used beside them: subtracting a sum of
  two reals from ANY extended real is subtracting one and then the other (false for infinite subtrahends).
-/
import proofs.«123220_j21371757264929_2_alg».proof.Proof.LibRealValued

noncomputable section

namespace Cert.RealValued

open Idealize.ShloMosaic

theorem isReal_one : IsReal (1 : EReal) := ⟨1, rfl⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases le_total a b with h | h
  · rw [max_eq_right h]; exact hb
  · rw [max_eq_left h]; exact ha

/-- The logarithm of a positive real is a real. -/
theorem IsPos.log {a : EReal} (ha : IsPos a) : IsReal (Ideal.log a) := by
  obtain ⟨r, hr, rfl⟩ := ha
  refine ⟨Real.log r, ?_⟩
  rw [Ideal.log_coe, if_neg (not_le.mpr hr)]

/-- A sum of positive reals over a nonempty finite type is a positive real. -/
theorem isPos_sum {ι : Type} [Fintype ι] [Nonempty ι] (f : ι → EReal) (h : ∀ i, IsPos (f i)) : IsPos (∑ i, f i) := by
  classical
  choose r hr using h
  refine ⟨∑ i, r i, Finset.sum_pos (fun i _ => (hr i).1) Finset.univ_nonempty, ?_⟩
  rw [coe_sum]; exact Finset.sum_congr rfl fun i _ => (hr i).2

/-- The maximum, taken from -infinity, of finitely many reals (at least one) is a real. -/
theorem isReal_fold_max {ι : Type} (s : Finset ι) (hs : s.Nonempty) (f : ι → EReal) (h : ∀ i ∈ s, IsReal (f i)) :
    IsReal (s.fold max (⊥ : EReal) f) := by
  classical
  induction hs using Finset.Nonempty.cons_induction with
  | singleton a =>
    rw [Finset.fold_singleton, max_eq_left bot_le]
    exact h a (Finset.mem_singleton_self a)
  | cons a s ha hs ih =>
    rw [Finset.fold_cons]
    exact (h a (Finset.mem_cons_self a s)).max (ih fun i hi => h i (Finset.mem_cons.mpr (Or.inr hi)))

/-- Subtracting a sum of two reals is subtracting one and then the other, from any extended real. -/
theorem sub_add_real (x : EReal) (a b : ℝ) : x - ((a : EReal) + (b : EReal)) = x - (a : EReal) - (b : EReal) := by
  induction x using EReal.rec with
  | bot => rw [EReal.bot_sub, EReal.bot_sub, EReal.bot_sub]
  | coe r =>
    rw [← EReal.coe_add, ← EReal.coe_sub, ← EReal.coe_sub, ← EReal.coe_sub]
    exact congrArg _ (by ring)
  | top => rw [← EReal.coe_add, EReal.top_sub_coe, EReal.top_sub_coe, EReal.top_sub_coe]

end Cert.RealValued

end
-- ==== Proof.LibTileSum.lean ====
import Mathlib.Algebra.BigOperators.Fin
import Mathlib.Algebra.BigOperators.Ring.Finset
import Mathlib.Logic.Equiv.Fin.Basic
import Mathlib.Tactic.Ring
import Mathlib.Tactic.Linarith

open scoped BigOperators

/-! # A sum over `k * m` consecutive indices, taken tile by tile

A general fact about finite sums in a commutative additive monoid: the sum of `g` over `Fin (k * m)` is the sum over
the `k` tiles of `m` consecutive indices of each tile's sum.  The tile sums are indexed by a natural number (wrapped
into range by a remainder that is the identity on every tile that exists), so that a running sum over the first tiles
is a sum over a `Finset.range` and grows by `Finset.sum_range_succ`. -/

namespace Cert.TileSum

variable {M : Type*} [AddCommMonoid M]

/-- The position of entry `i` of tile `j`. -/
def pos (k m : ℕ) (hpos : 0 < k * m) (j : ℕ) (i : Fin m) : Fin (k * m) := ⟨(j * m + i.val) % (k * m), Nat.mod_lt _ hpos⟩

/-- The sum of `g` over tile `j`. -/
def tile (k m : ℕ) (hpos : 0 < k * m) (g : Fin (k * m) → M) (j : ℕ) : M := ∑ i : Fin m, g (pos k m hpos j i)

theorem pos_val_of_lt (k m : ℕ) (hpos : 0 < k * m) (j : ℕ) (hj : j < k) (i : Fin m) : (pos k m hpos j i).val = j * m + i.val := by
  unfold pos
  have hi := i.isLt
  have : j * m + i.val < k * m := by
    calc j * m + i.val < j * m + m := by omega
      _ = (j + 1) * m := by ring
      _ ≤ k * m := Nat.mul_le_mul_right m hj
  exact Nat.mod_eq_of_lt this

/-- THE REGROUPING: the whole sum is the sum of the `k` tile sums. -/
theorem sum_eq_sum_tiles (k m : ℕ) (hpos : 0 < k * m) (g : Fin (k * m) → M) :
    ∑ n : Fin (k * m), g n = ∑ j ∈ Finset.range k, tile k m hpos g j := by
  rw [Finset.sum_range]
  unfold tile
  rw [← Fintype.sum_prod_type']
  refine (Fintype.sum_equiv finProdFinEquiv _ _ (fun p => ?_)).symm
  congr 1
  apply Fin.ext
  rw [pos_val_of_lt k m hpos p.1.val p.1.isLt p.2]
  simp only [finProdFinEquiv_apply_val]
  ring

end Cert.TileSum
-- ==== Proof.LibOnlineSoftmax.lean ====
/-
  The softmax-weighted sum computed tile by tile.

  A row of scores  σ  and a row of values  ν , both indexed by  k·m  keys, are cut into  k  tiles of  m  consecutive
  keys.  The running computation keeps three numbers: the largest score met so far (from -∞), the sum of the
  exponentials of the scores met so far, each taken relative to that running maximum, and the sum of those
  exponentials times the values.  A new tile first raises the maximum to  M' ; the two sums kept so far were taken
  relative to the old maximum  M , so they are rescaled by  exp (M - M')  — because  exp (s - M) · exp (M - M') =
  exp (s - M')  — and the tile's own terms, taken relative to  M' , are added.  After the last tile the second sum
  divided by the first is the softmax-weighted sum of the values,  Σ_j (exp (σ_j - M) / Σ_j' exp (σ_j' - M)) · ν_j  with
  M  the largest score: a common factor  exp (-M)  never changes the quotient, the normalising sum is positive, and
  dividing a finite sum by a nonzero real is dividing each term.  All of this is arithmetic of REAL numbers; on the
  extended reals it holds when every score and every value is the image of a real, which is what the statement assumes.
  The first tile starts from the maximum -∞: there  exp (-∞ - M') = 0  multiplies the empty sums  0 .
-/
import Idealize.ShloMosaic.PureOps.Ideal.Laws
import proofs.«123220_j21371757264929_2_alg».proof.Proof.LibRealValued
import proofs.«123220_j21371757264929_2_alg».proof.Proof.LibRealOrder
import proofs.«123220_j21371757264929_2_alg».proof.Proof.LibTileSum

noncomputable section

open scoped BigOperators

namespace Cert.Attn.Online

open Idealize.ShloMosaic Cert.RealValued

/-- One tile's update of (running maximum, sum of exponentials, weighted sum): `s` the tile's scores, `v` its values. -/
def step {m : ℕ} (s v : Fin m → EReal) (st : EReal × EReal × EReal) : EReal × EReal × EReal :=
  (max st.1 (Finset.univ.fold max ⊥ s),
   Ideal.exp (st.1 - max st.1 (Finset.univ.fold max ⊥ s)) * st.2.1
     + ∑ r, Ideal.exp (s r - max st.1 (Finset.univ.fold max ⊥ s)),
   Ideal.exp (st.1 - max st.1 (Finset.univ.fold max ⊥ s)) * st.2.2
     + ∑ r, Ideal.exp (s r - max st.1 (Finset.univ.fold max ⊥ s)) * v r)

/-- The state after the first `T` tiles, from (-∞, 0, 0). -/
def run (k m : ℕ) (hpos : 0 < k * m) (σ ν : Fin (k * m) → EReal) : ℕ → EReal × EReal × EReal
  | 0 => (⊥, 0, 0)
  | T + 1 => step (fun r => σ (Cert.TileSum.pos k m hpos T r)) (fun r => ν (Cert.TileSum.pos k m hpos T r))
      (run k m hpos σ ν T)

/-- The softmax-weighted sum of the values: the maximum taken from -∞ (twice: a fold, then against -∞ again), the
    normalising sum taken from 0, each weight a quotient. -/
def softmaxSum {n : ℕ} (σ ν : Fin n → EReal) : EReal :=
  ∑ j, Ideal.div (Ideal.exp (σ j - max ⊥ (Finset.univ.fold max ⊥ σ)))
      (0 + ∑ j', Ideal.exp (σ j' - max ⊥ (Finset.univ.fold max ⊥ σ))) * ν j

/-- The exponential of a difference of two reals is the real exponential of the real difference. -/
theorem exp_coe_sub (a b : ℝ) :
    Ideal.exp ((a : EReal) - (b : EReal)) = ((Real.exp (a - b) : ℝ) : EReal) := by
  rw [← EReal.coe_sub, Ideal.exp_coe]

/-- One tile's update from a state whose two sums are reals, when the new maximum is a real `μ'` and the rescaling
    factor `exp (old maximum - μ')` is a real `c`: every quantity of the new state is the image of a real. -/
theorem step_coe {m : ℕ} (s v : Fin m → ℝ) (a : EReal) (A B μ' c : ℝ)
    (hmax : max a (Finset.univ.fold max ⊥ (fun r => (s r : EReal))) = (μ' : EReal))
    (hc : Ideal.exp (a - (μ' : EReal)) = (c : EReal)) :
    step (fun r => (s r : EReal)) (fun r => (v r : EReal)) (a, (A : EReal), (B : EReal))
      = ((μ' : EReal), ((c * A + ∑ r, Real.exp (s r - μ') : ℝ) : EReal),
          ((c * B + ∑ r, Real.exp (s r - μ') * v r : ℝ) : EReal)) := by
  unfold step
  simp only [hmax, hc, exp_coe_sub]
  rw [EReal.coe_add, EReal.coe_add, EReal.coe_mul, EReal.coe_mul, coe_sum, coe_sum]
  simp only [EReal.coe_mul]

/-- THE INVARIANT.  After `T + 1` tiles the running maximum is a real `μ` and the two running sums are the sums, over
    the keys of those tiles, of `exp (score - μ)` and of `exp (score - μ) · value`.  (Which real `μ` is does not
    matter for the quotient of the two sums, so the invariant does not say.) -/
theorem run_succ (k m : ℕ) (hpos : 0 < k * m) (hm : 0 < m) (s v : Fin (k * m) → ℝ) (T : ℕ) :
    ∃ μ : ℝ, run k m hpos (fun j => (s j : EReal)) (fun j => (v j : EReal)) (T + 1)
      = ((μ : EReal),
         ((∑ j ∈ Finset.range (T + 1), ∑ r : Fin m,
            Real.exp (s (Cert.TileSum.pos k m hpos j r) - μ) : ℝ) : EReal),
         ((∑ j ∈ Finset.range (T + 1), ∑ r : Fin m,
            Real.exp (s (Cert.TileSum.pos k m hpos j r) - μ) * v (Cert.TileSum.pos k m hpos j r) : ℝ) : EReal)) := by
  haveI : Nonempty (Fin m) := ⟨⟨0, hm⟩⟩
  induction T with
  | zero =>
    -- the first tile: from -∞ the new maximum is the tile's, and exp (-∞ - μ') = 0 multiplies the empty sums
    obtain ⟨t, ht⟩ := isReal_fold_max Finset.univ Finset.univ_nonempty
      (fun r : Fin m => (s (Cert.TileSum.pos k m hpos 0 r) : EReal)) (fun r _ => isReal_coe _)
    refine ⟨t, ?_⟩
    have h := step_coe (fun r => s (Cert.TileSum.pos k m hpos 0 r)) (fun r => v (Cert.TileSum.pos k m hpos 0 r))
      ⊥ 0 0 t 0 (by rw [ht]; exact max_eq_right bot_le)
      (by rw [EReal.bot_sub, Ideal.exp_bot, EReal.coe_zero])
    rw [EReal.coe_zero] at h
    refine Eq.trans h ?_
    simp only [Finset.sum_range_one, mul_zero, zero_add]
  | succ T ih =>
    obtain ⟨μ, hμ⟩ := ih
    obtain ⟨t, ht⟩ := isReal_fold_max Finset.univ Finset.univ_nonempty
      (fun r : Fin m => (s (Cert.TileSum.pos k m hpos (T + 1) r) : EReal)) (fun r _ => isReal_coe _)
    refine ⟨max μ t, ?_⟩
    have h := step_coe (fun r => s (Cert.TileSum.pos k m hpos (T + 1) r))
      (fun r => v (Cert.TileSum.pos k m hpos (T + 1) r)) (μ : EReal)
      (∑ j ∈ Finset.range (T + 1), ∑ r : Fin m, Real.exp (s (Cert.TileSum.pos k m hpos j r) - μ))
      (∑ j ∈ Finset.range (T + 1), ∑ r : Fin m,
        Real.exp (s (Cert.TileSum.pos k m hpos j r) - μ) * v (Cert.TileSum.pos k m hpos j r))
      (max μ t) (Real.exp (μ - max μ t))
      (by rw [ht]; exact (EReal.coe_strictMono.monotone.map_max).symm) (exp_coe_sub _ _)
    have hrun : run k m hpos (fun j => (s j : EReal)) (fun j => (v j : EReal)) (T + 1 + 1)
        = step (fun r => (s (Cert.TileSum.pos k m hpos (T + 1) r) : EReal))
            (fun r => (v (Cert.TileSum.pos k m hpos (T + 1) r) : EReal))
            (run k m hpos (fun j => (s j : EReal)) (fun j => (v j : EReal)) (T + 1)) := rfl
    rw [hrun, hμ, h]
    -- the sums kept so far, rescaled: exp (μ - μ') · exp (s - μ) = exp (s - μ')
    have e1 : ∀ x : ℝ, Real.exp (μ - max μ t) * Real.exp (x - μ) = Real.exp (x - max μ t) := fun x => by
      rw [← Real.exp_add]; congr 1; ring
    congr 3
    · rw [Finset.sum_range_succ _ (T + 1), Finset.mul_sum]
      congr 1
      refine Finset.sum_congr rfl fun j _ => ?_
      rw [Finset.mul_sum]
      exact Finset.sum_congr rfl fun r _ => e1 _
    · rw [Finset.sum_range_succ _ (T + 1), Finset.mul_sum]
      congr 1
      refine Finset.sum_congr rfl fun j _ => ?_
      rw [Finset.mul_sum]
      exact Finset.sum_congr rfl fun r _ => by rw [← mul_assoc, e1]

/-- The quotient of the two sums does not depend on the real the exponents are taken relative to: passing from `μ` to
    `M` multiplies both sums by `exp (M - μ)`, which is not zero; and dividing a finite sum by a real is dividing each
    term. -/
theorem quot_indep {n : ℕ} (s v : Fin n → ℝ) (μ M : ℝ) (hL : (∑ j, Real.exp (s j - M)) ≠ 0) :
    (∑ j, Real.exp (s j - μ) * v j) * (1 / ∑ j, Real.exp (s j - μ))
      = ∑ j, Real.exp (s j - M) * (1 / ∑ j', Real.exp (s j' - M)) * v j := by
  have h1 : ∀ j, Real.exp (s j - μ) = Real.exp (M - μ) * Real.exp (s j - M) := fun j => by
    rw [← Real.exp_add]; congr 1; ring
  have hP : ∑ j, Real.exp (s j - μ) = Real.exp (M - μ) * ∑ j, Real.exp (s j - M) := by
    rw [Finset.mul_sum]; exact Finset.sum_congr rfl fun j _ => h1 j
  have hQ : ∑ j, Real.exp (s j - μ) * v j = Real.exp (M - μ) * ∑ j, Real.exp (s j - M) * v j := by
    rw [Finset.mul_sum]; exact Finset.sum_congr rfl fun j _ => by rw [h1 j, mul_assoc]
  have hR : ∑ j, Real.exp (s j - M) * (1 / ∑ j', Real.exp (s j' - M)) * v j
      = (∑ j, Real.exp (s j - M) * v j) * (1 / ∑ j', Real.exp (s j' - M)) := by
    rw [Finset.sum_mul]; exact Finset.sum_congr rfl fun j _ => by ring
  have hc : Real.exp (M - μ) ≠ 0 := (Real.exp_pos _).ne'
  rw [hP, hQ, hR]
  field_simp

/-- After all `k` tiles, the weighted sum divided by the sum of exponentials is the softmax-weighted sum. -/
theorem online_eq_softmax (k m : ℕ) (hk : 0 < k) (hm : 0 < m) (σ ν : Fin (k * m) → EReal)
    (hσ : ∀ j, IsReal (σ j)) (hν : ∀ j, IsReal (ν j)) :
    Ideal.div (run k m (Nat.mul_pos hk hm) σ ν k).2.2 (run k m (Nat.mul_pos hk hm) σ ν k).2.1 = softmaxSum σ ν := by
  -- every score and every value is the image of a real
  choose s hs using hσ
  choose v hv using hν
  obtain rfl : σ = fun j => (s j : EReal) := funext hs
  obtain rfl : ν = fun j => (v j : EReal) := funext hv
  haveI : Nonempty (Fin (k * m)) := ⟨⟨0, Nat.mul_pos hk hm⟩⟩
  -- the tile-by-tile side: after the k tiles the two sums run over all the keys, relative to some real μ
  obtain ⟨μ, hμ⟩ := run_succ k m (Nat.mul_pos hk hm) hm s v (k - 1)
  rw [Nat.sub_add_cancel hk] at hμ
  have hP : (∑ j ∈ Finset.range k, ∑ r : Fin m,
      Real.exp (s (Cert.TileSum.pos k m (Nat.mul_pos hk hm) j r) - μ)) = ∑ n, Real.exp (s n - μ) :=
    (Cert.TileSum.sum_eq_sum_tiles k m (Nat.mul_pos hk hm) (fun n => Real.exp (s n - μ))).symm
  have hQ : (∑ j ∈ Finset.range k, ∑ r : Fin m,
      Real.exp (s (Cert.TileSum.pos k m (Nat.mul_pos hk hm) j r) - μ)
        * v (Cert.TileSum.pos k m (Nat.mul_pos hk hm) j r)) = ∑ n, Real.exp (s n - μ) * v n :=
    (Cert.TileSum.sum_eq_sum_tiles k m (Nat.mul_pos hk hm) (fun n => Real.exp (s n - μ) * v n)).symm
  rw [hP, hQ] at hμ
  rw [hμ]
  have hPpos : 0 < ∑ n, Real.exp (s n - μ) := Finset.sum_pos (fun n _ => Real.exp_pos _) Finset.univ_nonempty
  show Ideal.div ((∑ n, Real.exp (s n - μ) * v n : ℝ) : EReal) ((∑ n, Real.exp (s n - μ) : ℝ) : EReal) = _
  rw [Ideal.div_coe hPpos.ne', ← EReal.coe_mul]
  -- the softmax side: the largest score is a real M, the normalising sum a positive real
  obtain ⟨M, hM⟩ : IsReal (max ⊥ (Finset.univ.fold max ⊥ fun j => (s j : EReal))) := by
    rw [max_eq_right bot_le]
    exact isReal_fold_max _ Finset.univ_nonempty _ (fun j _ => isReal_coe _)
  have hLpos : 0 < ∑ n, Real.exp (s n - M) := Finset.sum_pos (fun n _ => Real.exp_pos _) Finset.univ_nonempty
  unfold softmaxSum
  simp only [hM, exp_coe_sub]
  rw [← coe_sum, zero_add]
  simp only [Ideal.div_coe hLpos.ne', ← EReal.coe_mul]
  rw [← coe_sum]
  exact congrArg _ (quot_indep s v μ M hLpos.ne')

end Cert.Attn.Online

end
-- ==== Proof.AttnRow.lean ====
/-
  One query row of the attention block.

  Read at the entries of one query row  (b, i)  and one feature  h , a tile's update of the three running vectors is
  one step of the scalar recurrence on (maximum, sum of exponentials, weighted sum): the tile's scores are those of
  row  i  against the tile's 512 keys, its values the entries  h  of the tile's 512 value rows.  The eight tiles are the
  eight consecutive bands of 512 rows of the key and value arrays, so the block's entry  (b, i, h)  is the weighted sum
  over the sum of exponentials after the eight-step run over all 4096 keys.
-/
import proofs.«123220_j21371757264929_2_alg».proof.Proof.AttnBlock
import proofs.«123220_j21371757264929_2_alg».proof.Proof.LibLastAxis
import proofs.«123220_j21371757264929_2_alg».proof.Proof.LibBatchProduct
import proofs.«123220_j21371757264929_2_alg».proof.Proof.LibOnlineSoftmax

set_option maxRecDepth 16384

noncomputable section

open scoped BigOperators

namespace Cert.KernelIdeal.Attn

open Idealize.ShloMosaic Idealize.ShloMosaic.ValueIdx Idealize.SL.Sem Cert.KernelIdeal Cert.KernelIdeal.Gen
open Cert.Lib.LastAxis Cert.Attn.Online

/-- The single-precision word of -∞. -/
theorem ofBits_ninf : Ideal.ofBits .f32 0xFF800000#32 = (⊥ : EReal) := by simp [Ideal.ofBits, Ideal.ieee]

/-- A scalar literal on the extended reals is the number its word denotes (for any word: nothing is evaluated). -/
theorem scalar_ofBits (φ : FTy) (w : BitVec φ.bits) : Scalar.ofBits (F := Ideal) φ w = Ideal.ofBits φ w := rfl

theorem exp_apply {s : Shape} {φ : FTy} (a : FVec Ideal s φ) (j : s.Idx) : exp a j = Ideal.exp (a j) := rfl

theorem floor_apply {s : Shape} {φ : FTy} (a : FVec Ideal s φ) (j : s.Idx) : floor a j = Ideal.liftRound Int.floor (a j) := rfl

/-- The score of query row (b, i) against key row r of a tile. -/
def sc (q : FVec Ideal S4x512x64 .f32) (kT : Vec Ideal S4x512x64 .f32) (b : Fin 4) (i r : Fin 512) : EReal :=
  Ideal.liftRound Int.floor ((∑ d : Fin 64, q (ix3 b i d) * kT (ix3 b r d)) * Ideal.ofBits .f32 0x3E000000#32)

theorem scores_apply (q : FVec Ideal S4x512x64 .f32) (kT : Vec Ideal S4x512x64 .f32) (b : Fin 4) (i r : Fin 512) :
    scores q kT (ix3 b i r) = sc q kT b i r := by
  unfold scores sc
  rw [floor_apply, mulf_apply, broadcast_apply, scalar_ofBits, shapeCast_self,
    matmul_bt_zero_apply _ rfl rfl rfl rfl rfl rfl]

theorem newMax_apply (m : FVec Ideal S4x512x1 .f32) (s : FVec Ideal S4x512x512 .f32) (b : Fin 4) (i : Fin 512) :
    newMax m s (ix3 b i 0) = max (m (ix3 b i 0)) (Finset.univ.fold max ⊥ (fun r => s (ix3 b i r))) := by
  unfold newMax
  rw [maximumf_apply, shapeCast_column_apply]
  refine congrArg (max (m (ix3 b i 0))) ?_
  refine (max_axis2_apply s _ _ _ _ b i).trans ?_
  rw [Ideal.ofBits_def, ofBits_ninf]

theorem rescale_apply (m m' : FVec Ideal S4x512x1 .f32) (j : S4x512x1.Idx) :
    rescale m m' j = Ideal.exp (m j - m' j) := by
  unfold rescale
  rw [exp_apply, subf_apply]

theorem weights_apply (s : FVec Ideal S4x512x512 .f32) (m' : FVec Ideal S4x512x1 .f32) (b : Fin 4) (i r : Fin 512) :
    weights s m' (ix3 b i r) = Ideal.exp (s (ix3 b i r) - m' (ix3 b i 0)) := by
  unfold weights
  rw [exp_apply, subf_apply, broadcastTo_column_apply _ _ (by decide) (by decide)]

theorem newSum_apply (a l : FVec Ideal S4x512x1 .f32) (p : FVec Ideal S4x512x512 .f32) (b : Fin 4) (i : Fin 512) :
    newSum a l p (ix3 b i 0) = a (ix3 b i 0) * l (ix3 b i 0) + ∑ r : Fin 512, p (ix3 b i r) := by
  unfold newSum
  rw [addf_apply, mulf_apply, shapeCast_column_apply]
  exact congrArg (a (ix3 b i 0) * l (ix3 b i 0) + ·) (add_axis2_apply p _ _ _ _ b i)

theorem newAcc_apply (a : FVec Ideal S4x512x1 .f32) (acc : FVec Ideal S4x512x64 .f32) (p : FVec Ideal S4x512x512 .f32)
    (vT : Vec Ideal S4x512x64 .bf16) (b : Fin 4) (i : Fin 512) (h : Fin 64) :
    newAcc a acc p vT (ix3 b i h) = a (ix3 b i 0) * acc (ix3 b i h) + ∑ r : Fin 512, p (ix3 b i r) * vT (ix3 b r h) := by
  unfold newAcc
  rw [addf_apply, mulf_apply, broadcastTo_column_apply _ _ (by decide) (by decide), shapeCast_self,
    BatchProduct.matmul_zero_apply _ rfl rfl rfl rfl rfl rfl]
  simp only [truncf_apply]

/-- The three running vectors read at one query row and one feature. -/
def rd (st : St Ideal) (b : Fin 4) (i : Fin 512) (h : Fin 64) : EReal × EReal × EReal :=
  (st.1 (ix3 b i 0), st.2.1 (ix3 b i 0), st.2.2 (ix3 b i h))

/-- One tile, read at a query row and a feature, is one step of the scalar recurrence. -/
theorem tile_apply (q : FVec Ideal S4x512x64 .f32) (kT : Vec Ideal S4x512x64 .f32) (vT : Vec Ideal S4x512x64 .bf16)
    (st : St Ideal) (b : Fin 4) (i : Fin 512) (h : Fin 64) :
    rd (tile q kT vT st) b i h = step (fun r => sc q kT b i r) (fun r => vT (ix3 b r h)) (rd st b i h) := by
  unfold rd tile step
  simp only [newMax_apply, rescale_apply, weights_apply, newSum_apply, newAcc_apply, scores_apply]

theorem rd_st0 (b : Fin 4) (i : Fin 512) (h : Fin 64) : rd (st0 (F := Ideal)) b i h = (⊥, 0, 0) := by
  unfold rd st0
  simp only [broadcast_apply, scalar_ofBits, ofBits_ninf, Ideal.ofBits_zero_f32]

/-- The scores of query row (b, i) of the block against all 4096 key rows. -/
def rowScores (q0 : Vec Ideal S4x512x64 .f32) (K : Vec Ideal S4x4096x64 .f32) (b : Fin 4) (i : Fin 512) : Fin (8 * 512) → EReal :=
  fun j => Ideal.liftRound Int.floor ((∑ d : Fin 64, q0 (ix3 b i d) * K (ix3 b j d)) * Ideal.ofBits .f32 0x3E000000#32)

/-- Feature h of all 4096 value rows of batch b. -/
def rowValues (V : Vec Ideal S4x4096x64 .bf16) (b : Fin 4) (h : Fin 64) : Fin (8 * 512) → EReal := fun j => V (ix3 b j h)

theorem hpos : 0 < 8 * 512 := by decide

/-- Tile T of the keys is the band of rows 512·T … 512·T + 511: its scores are the row's scores at those positions. -/
theorem sc_band (q0 : Vec Ideal S4x512x64 .f32) (K : Vec Ideal S4x4096x64 .f32) (b : Fin 4) (i : Fin 512) (T : ℕ) (hT : T < 8)
    (o : ℕ) (ho : o = T * 512) (inb : ∀ a, (![0, o, 0] : Fin 3 → ℕ) a + S4x512x64.size a ≤ S4x4096x64.size a) :
    (fun r => sc q0 (View.ld K (Rect.unit (s := S4x4096x64) ![0, o, 0] S4x512x64.size inb)) b i r)
      = fun r => rowScores q0 K b i (Cert.TileSum.pos 8 512 hpos T r) := by
  funext r
  unfold sc rowScores
  refine congrArg (fun z => Ideal.liftRound Int.floor (z * _)) (Finset.sum_congr rfl fun d _ => congrArg (_ * ·) ?_)
  exact ld_rows_apply K o inb b r d _ (by rw [Cert.TileSum.pos_val_of_lt 8 512 hpos T hT r, ho])

theorem val_band (V : Vec Ideal S4x4096x64 .bf16) (b : Fin 4) (h : Fin 64) (T : ℕ) (hT : T < 8)
    (o : ℕ) (ho : o = T * 512) (inb : ∀ a, (![0, o, 0] : Fin 3 → ℕ) a + S4x512x64.size a ≤ S4x4096x64.size a) :
    (fun r => View.ld V (Rect.unit (s := S4x4096x64) ![0, o, 0] S4x512x64.size inb) (ix3 b r h))
      = fun r => rowValues V b h (Cert.TileSum.pos 8 512 hpos T r) := by
  funext r
  unfold rowValues
  exact ld_rows_apply V o inb b r h _ (by rw [Cert.TileSum.pos_val_of_lt 8 512 hpos T hT r, ho])

/-- After the eight tiles, the running vectors at a query row and a feature are the eight-step run over the row's scores
    and the feature's values. -/
theorem st8_apply (q0 : Vec Ideal S4x512x64 .f32) (K : Vec Ideal S4x4096x64 .f32) (V : Vec Ideal S4x4096x64 .bf16)
    (b : Fin 4) (i : Fin 512) (h : Fin 64) :
    rd (st8 q0 K V) b i h = run 8 512 hpos (rowScores q0 K b i) (rowValues V b h) 8 := by
  unfold st8
  simp only [tile_apply, rd_st0]
  rw [sc_band q0 K b i 0 (by decide) 0 rfl, sc_band q0 K b i 1 (by decide) 512 rfl, sc_band q0 K b i 2 (by decide) 1024 rfl,
    sc_band q0 K b i 3 (by decide) 1536 rfl, sc_band q0 K b i 4 (by decide) 2048 rfl, sc_band q0 K b i 5 (by decide) 2560 rfl,
    sc_band q0 K b i 6 (by decide) 3072 rfl, sc_band q0 K b i 7 (by decide) 3584 rfl,
    val_band V b h 0 (by decide) 0 rfl, val_band V b h 1 (by decide) 512 rfl, val_band V b h 2 (by decide) 1024 rfl,
    val_band V b h 3 (by decide) 1536 rfl, val_band V b h 4 (by decide) 2048 rfl, val_band V b h 5 (by decide) 2560 rfl,
    val_band V b h 6 (by decide) 3072 rfl, val_band V b h 7 (by decide) 3584 rfl]
  rfl

/-- The block at entry (b, i, h): the weighted sum over the sum of exponentials after the eight-step run. -/
theorem block_apply (q0 : Vec Ideal S4x512x64 .f32) (K : Vec Ideal S4x4096x64 .f32) (V : Vec Ideal S4x4096x64 .bf16)
    (b : Fin 4) (i : Fin 512) (h : Fin 64) :
    block q0 K V (ix3 b i h)
      = Ideal.div (run 8 512 hpos (rowScores q0 K b i) (rowValues V b h) 8).2.2
          (run 8 512 hpos (rowScores q0 K b i) (rowValues V b h) 8).2.1 := by
  unfold block
  rw [divf_apply, broadcastTo_column_apply _ _ (by decide) (by decide), shapeCast_self, ← st8_apply q0 K V b i h]
  rfl

end Cert.KernelIdeal.Attn

end
-- ==== Proof.Region1.lean ====
/-
  The attention kernel's output array, whole.

  The grid has 8 points; point t stages query rows 512·t … 512·t + 511 of every batch, the whole key array and the whole
  value array, and writes back rows 512·t … 512·t + 511 of every batch of the output.  Entry (b, i, h) of the block
  point t writes is the tile-by-tile quotient for query row 512·t + i of batch b: its scores are those of that row of the
  query array against all 4096 key rows of the batch, its values feature h of the batch's value rows.  So each block is
  the restriction of ONE function of the three arrays, and the 8 blocks tile the rows: after the last point the output
  array is that function.
-/
import proofs.«123220_j21371757264929_2_alg».proof.Proof.Gen.KernelIdeal.Frame
import proofs.«123220_j21371757264929_2_alg».proof.Proof.AttnRow
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.Attn Cert.Attn.Online

-- the TensorCore's buffer contents when the region is entered
variable (V : (c : Dev nD) → (b : Ref sig .tc) → Buf (Elt Ideal) ((c : Thread nD τ).loc b))

/-- The scores of query row (b, s) of the query array against every key row of batch b. -/
def arrScores (Q K : S4x4096x64.Idx → EReal) (b : Fin 4) (s : Fin 4096) : Fin (8 * 512) → EReal := fun j =>
  Ideal.liftRound Int.floor ((∑ d : Fin 64, Q (ix3 b s d) * K (ix3 b j d)) * Ideal.ofBits .f32 0x3E000000#32)

/-- Feature h of every value row of batch b. -/
def arrValues (Vv : S4x4096x64.Idx → EReal) (b : Fin 4) (h : Fin 64) : Fin (8 * 512) → EReal := fun j => Vv (ix3 b j h)

/-- The output array as one function of the query, key and value arrays. -/
def attnArr (Q K Vv : S4x4096x64.Idx → EReal) : S4x4096x64.Idx → EReal := fun i =>
  Ideal.div (run 8 512 hpos (arrScores Q K (i 0) (i 1)) (arrValues Vv (i 0) (i 2)) 8).2.2
    (run 8 512 hpos (arrScores Q K (i 0) (i 1)) (arrValues Vv (i 0) (i 2)) 8).2.1

theorem zero_offsets : (![0, 0, 0] : Fin 3 → Nat) = fun _ => 0 := funext fun a => by fin_cases a <;> rfl

/-- The printed index maps over the grid: the query window moves with the output window along the rows, the key and
    value windows stay at the origin, and the output's row-block index stays below 8. -/
theorem index_facts : ∀ t : Fin cfg1.N, win1_0.index t (0 : Fin 3) = 0 ∧ win1_0.index t (1 : Fin 3) = win1_3.index t (1 : Fin 3)
    ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (2 : Fin 3) = 0 ∧ win1_3.index t (1 : Fin 3) ≤ 7 :=
  (by decide +kernel : ∀ t : Fin grid1.N, _)

/-- Every block of rows is some point's. -/
theorem index_onto : ∀ q : Fin 8, ∃ t : Fin cfg1.N, win1_3.index t = ![0, q.val, 0] :=
  (by decide +kernel : ∀ q : Fin 8, ∃ t : Fin grid1.N, win1_3.index t = ![0, q.val, 0])

/-- Entry (b, i, d) of the query window's block at point t is entry (b, 512·t + i, d) of the query array. -/
theorem query_block (c : Dev nD) (t : Fin cfg1.N) (b : Fin 4) (i : Fin 512) (d : Fin 64) (S : Fin 4096)
    (hS : S.val = win1_3.index t (1 : Fin 3) * 512 + i.val) :
    (iblk1 V c 0 t : Vec Ideal S4x512x64 .f32) (ix3 b i d) = (V c main_v2 : S4x4096x64.Idx → Elt Ideal .f32) (ix3 b S d) := by
  obtain ⟨e00, e01, e02, -⟩ := index_facts t
  unfold iblk1
  rw [View.read_apply]
  show V c main_v2 _ = V c main_v2 _
  congr 1
  funext a
  apply Fin.ext
  match a with
  | ⟨0, _⟩ => show win1_0.index t (0 : Fin 3) * 4 + 1 * b.val = b.val; omega
  | ⟨1, _⟩ => show win1_0.index t (1 : Fin 3) * 512 + 1 * i.val = S.val; omega
  | ⟨2, _⟩ => show win1_0.index t (2 : Fin 3) * 64 + 1 * d.val = d.val; omega

/-- The key window's block is the whole key array, at every point. -/
theorem key_block (c : Dev nD) (t : Fin cfg1.N) (b : Fin 4) (j : Fin 4096) (d : Fin 64) :
    (iblk1 V c 1 t : Vec Ideal S4x4096x64 .f32) (ix3 b j d) = (V c main_v3 : S4x4096x64.Idx → Elt Ideal .f32) (ix3 b j d) := by
  obtain ⟨-, -, -, e10, e11, e12, -⟩ := index_facts t
  unfold iblk1
  rw [View.read_apply]
  show V c main_v3 _ = V c main_v3 _
  congr 1
  funext a
  apply Fin.ext
  match a with
  | ⟨0, _⟩ => show win1_1.index t (0 : Fin 3) * 4 + 1 * b.val = b.val; omega
  | ⟨1, _⟩ => show win1_1.index t (1 : Fin 3) * 4096 + 1 * j.val = j.val; omega
  | ⟨2, _⟩ => show win1_1.index t (2 : Fin 3) * 64 + 1 * d.val = d.val; omega

/-- The value window's block is the whole value array, at every point. -/
theorem value_block (c : Dev nD) (t : Fin cfg1.N) (b : Fin 4) (j : Fin 4096) (h : Fin 64) :
    (iblk1 V c 2 t : Vec Ideal S4x4096x64 .bf16) (ix3 b j h) = (V c main_v4 : S4x4096x64.Idx → Elt Ideal .bf16) (ix3 b j h) := by
  obtain ⟨-, -, -, -, -, -, e20, e21, e22, -⟩ := index_facts t
  unfold iblk1
  rw [View.read_apply]
  show V c main_v4 _ = V c main_v4 _
  congr 1
  funext a
  apply Fin.ext
  match a with
  | ⟨0, _⟩ => show win1_2.index t (0 : Fin 3) * 4 + 1 * b.val = b.val; omega
  | ⟨1, _⟩ => show win1_2.index t (1 : Fin 3) * 4096 + 1 * j.val = j.val; omega
  | ⟨2, _⟩ => show win1_2.index t (2 : Fin 3) * 64 + 1 * h.val = h.val; omega

/-- Entry (b, i, h) of the output window's block at point t sits at (b, 512·t + i, h) of the output array. -/
theorem out_place (t : Fin cfg1.N) (b : Fin 4) (i : Fin 512) (h : Fin 64) (S : Fin 4096)
    (hS : S.val = win1_3.index t (1 : Fin 3) * 512 + i.val) :
    ((cfg1.win 3).blk t).view.emb (ix3 b i h) = (ix3 b S h : S4x4096x64.Idx) := by
  obtain ⟨-, -, -, -, -, -, -, -, -, e30, e32, -⟩ := index_facts t
  funext a
  apply Fin.ext
  match a with
  | ⟨0, _⟩ => show win1_3.index t (0 : Fin 3) * 4 + 1 * b.val = b.val; omega
  | ⟨1, _⟩ => show win1_3.index t (1 : Fin 3) * 512 + 1 * i.val = S.val; omega
  | ⟨2, _⟩ => show win1_3.index t (2 : Fin 3) * 64 + 1 * h.val = h.val; omega

/-- The scores of a block's query row are those of the array's row it was fetched from. -/
theorem block_scores (c : Dev nD) (t : Fin cfg1.N) (b : Fin 4) (i : Fin 512) (S : Fin 4096)
    (hS : S.val = win1_3.index t (1 : Fin 3) * 512 + i.val) :
    rowScores (iblk1 V c 0 t) (iblk1 V c 1 t) b i = arrScores (V c main_v2) (V c main_v3) b S := by
  funext j'
  unfold rowScores arrScores
  refine congrArg (fun z => Ideal.liftRound Int.floor (z * _)) (Finset.sum_congr rfl fun d _ => ?_)
  exact congrArg₂ (· * ·) (query_block V c t b i d S hS) (key_block V c t b j' d)

theorem block_values (c : Dev nD) (t : Fin cfg1.N) (b : Fin 4) (h : Fin 64) :
    rowValues (iblk1 V c 2 t) b h = arrValues (V c main_v4) b h := by
  funext j'
  unfold rowValues arrValues
  exact value_block V c t b j' h

/-- The body's stored block, entry by entry, is the one function at the entry's place in the array. -/
theorem block_entry (c : Dev nD) (t : Fin cfg1.N) (b : Fin 4) (i : Fin 512) (h : Fin 64) (S : Fin 4096)
    (hS : S.val = win1_3.index t (1 : Fin 3) * 512 + i.val) :
    block (iblk1 V c 0 t) (iblk1 V c 1 t) (iblk1 V c 2 t) (ix3 b i h)
      = attnArr (V c main_v2) (V c main_v3) (V c main_v4) (ix3 b S h) := by
  refine (block_apply _ _ _ b i h).trans ?_
  rw [block_scores V c t b i S hS, block_values V c t b h]
  rfl

/-- What point t writes back is block t of the one function. -/
theorem flushed_eq (c : Dev nD) (t : Fin cfg1.N) :
    (dat1 (F := Ideal) V c).flushed 3 t
      = ((cfg1.win 3).blk t).view.read (Elt Ideal) (attnArr (V c main_v2) (V c main_v3) (V c main_v4)) := by
  show (cfg1.win 3).cut (grid1.coords t) ((dat1 (F := Ideal) V c).after 3 t) = _
  rw [after1_3, out_eq_block, View.canon_unit_zero zero_offsets]
  simp only [View.ld_unit_zero (S := S4x512x64) zero_offsets]
  funext j
  obtain ⟨b, i, h, rfl⟩ : ∃ (b : Fin 4) (i : Fin 512) (h : Fin 64), j = ix3 b i h := ⟨j 0, j 1, j 2, eq_ix3 j⟩
  have hrow : win1_3.index t (1 : Fin 3) * 512 + i.val < 4096 := by
    have := (index_facts t).2.2.2.2.2.2.2.2.2.2.2
    have := i.isLt
    omega
  rw [View.read_apply, out_place t b i h ⟨_, hrow⟩ rfl]
  exact block_entry V c t b i h ⟨_, hrow⟩ rfl

/-- An index of the output array is in point t's block iff each coordinate is in the block's range on its axis. -/
theorem mem_block (t : Fin cfg1.N) (i : S4x4096x64.Idx) :
    i ∈ ((cfg1.win 3).blk t).view.set ↔ ∀ a : Fin 3, win1_3.index t a * S4x512x64.size a ≤ (i a).val ∧ (i a).val < win1_3.index t a * S4x512x64.size a + S4x512x64.size a := by
  show i ∈ ((View.whole main_v5).slice (win1_3.rect t)).set ↔ _
  rw [View.set_slice_whole, Rect.mem_set_unit]
  exact Iff.rfl

/-- The blocks tile the array: the point covering row r is r / 512. -/
theorem covered (i : S4x4096x64.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ := index_onto ⟨(i 1).val / 512, by omega⟩
  have q0 : win1_3.index t (0 : Fin 3) = 0 := congrFun ht 0
  have q1 : win1_3.index t (1 : Fin 3) = (i 1).val / 512 := congrFun ht 1
  have q2 : win1_3.index t (2 : Fin 3) = 0 := congrFun ht 2
  refine ⟨t, flush1_3 t, ?_⟩
  rw [mem_block]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The output array after the region. -/
theorem final (c : Dev nD) :
    (dat1 (F := Ideal) V c).arrAt 3 cfg1.N = attnArr (V c main_v2) (V c main_v3) (V c main_v4) :=
  (dat1 (F := Ideal) V c).arrAt_eq_of_cover 3 _ (fun t _ => flushed_eq V c t) covered

end Cert.KernelIdeal.Region1

end
-- ==== Proof.KernelRun.lean ====
/-
  The idealized kernel's run, with its result array named.

  @main is four segments: the input recast to [16384, 768]; the projection kernel; the three projections recast to
  [4, 4096, 64]; the attention kernel.  Launched over these segments, every execution ends with every buffer that
  outlives the kernels at the contents the segments' fold assigns it.  Reading that fold at the result buffer gives the
  attention kernel's output array of the recast projections of the recast input; at an argument buffer, the launch
  contents.
-/
import proofs.«123220_j21371757264929_2_alg».proof.Proof.Gen.KernelIdeal.Frame
import proofs.«123220_j21371757264929_2_alg».proof.Proof.Region0
import proofs.«123220_j21371757264929_2_alg».proof.Proof.Region1

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyFormat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main terminates, nothing faulting, with every buffer that outlives the kernels at the
    contents the fold through the four segments assigns it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The input recast to rows, at the projection kernel's entry. -/
theorem entry_rows (c : Dev nD) :
    W1 m ρ c (Proc.devRef .tc main_v0)
      = shapeCast S16384x768 (m ((c : Thread nD τ).loc main_arg0)) shapeCasts_S4x4096x768_S16384x768 := by
  show StableHlo.after hostOps0 (W0 m ρ c) (Proc.devRef .tc main_v0) = _
  after_results_simp <;> rfl

/-- A weight matrix at the projection kernel's entry is the launch contents (the recast writes another buffer). -/
theorem entry_w1 (c : Dev nD) : W1 m ρ c (Proc.devRef .tc main_arg1) = m ((c : Thread nD τ).loc main_arg1) := by
  show StableHlo.after hostOps0 (W0 m ρ c) (Proc.devRef .tc main_arg1) = _
  after_results_simp <;> rfl
theorem entry_w2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry_w3 (c : Dev nD) : W1 m ρ c (Proc.devRef .tc main_arg3) = m ((c : Thread nD τ).loc main_arg3) := by
  show StableHlo.after hostOps0 (W0 m ρ c) (Proc.devRef .tc main_arg3) = _
  after_results_simp <;> rfl

/-- The three projections recast to batches, at the attention kernel's entry. -/
theorem entry_q (c : Dev nD) :
    W3 m ρ c (Proc.devRef .tc main_v2)
      = shapeCast S4x4096x64 (W2 m ρ c (Proc.devRef .tc main_v1_0)) shapeCasts_S16384x64_S4x4096x64 := by
  show StableHlo.after hostOps1 (W2 m ρ c) (Proc.devRef .tc main_v2) = _
  after_results_simp <;> rfl
theorem entry_k (c : Dev nD) :
    W3 m ρ c (Proc.devRef .tc main_v3)
      = shapeCast S4x4096x64 (W2 m ρ c (Proc.devRef .tc main_v1_1)) shapeCasts_S16384x64_S4x4096x64 := by
  show StableHlo.after hostOps1 (W2 m ρ c) (Proc.devRef .tc main_v3) = _
  after_results_simp <;> rfl
theorem entry_v (c : Dev nD) :
    W3 m ρ c (Proc.devRef .tc main_v4)
      = shapeCast S4x4096x64 (W2 m ρ c (Proc.devRef .tc main_v1_2)) shapeCasts_S16384x64_S4x4096x64 := by
  show StableHlo.after hostOps1 (W2 m ρ c) (Proc.devRef .tc main_v4) = _
  after_results_simp <;> rfl

end AnyFormat

end Cert.KernelIdeal.KRun

end
-- ==== Proof.Spec.lean ====
/-
  What both programs compute, as functions of the argument arrays on the extended reals.

  x  is the input [4, 4096, 768]; a weight matrix  w  is [64, 768].  A projection is  x · wᵀ : row (b, s) of the
  input against row d of the weights.  The score of query row i against key row j of batch b is the product of
  their projections (by the query and the key weights) summed over the 64 features, divided by 8, rounded down.
-/
import Idealize.ShloMosaic.PureOps.Ideal.Laws
import Idealize.ShloMosaic.Lib.ValueIdx

noncomputable section

open scoped BigOperators

namespace Cert.Attn.Spec

open Idealize.ShloMosaic Idealize.ShloMosaic.ValueIdx

/-- Entry (b, s, d) of the projection of the input by a weight matrix. -/
def proj (x : (⟨3, ![4, 4096, 768]⟩ : Shape).Idx → EReal) (w : (⟨2, ![64, 768]⟩ : Shape).Idx → EReal)
    (b : Fin 4) (s : Fin 4096) (d : Fin 64) : EReal :=
  ∑ e : Fin 768, x (ix3 b s e) * w (ix2 d e)

/-- The scores of query row `i` of batch `b` against every key row: the quotient by the word of 8, rounded down. -/
def refScores (x : (⟨3, ![4, 4096, 768]⟩ : Shape).Idx → EReal) (wq wk : (⟨2, ![64, 768]⟩ : Shape).Idx → EReal)
    (b : Fin 4) (i : Fin 4096) : Fin 4096 → EReal := fun j =>
  Ideal.liftRound Int.floor (Ideal.div (∑ d : Fin 64, proj x wq b i d * proj x wk b j d) (Ideal.ofBits .f32 0x41000000#32))

end Cert.Attn.Spec

end
-- ==== Proof.KernelValue.lean ====
/-
  The idealized kernel's result array, entry by entry.

  Reading the segments' fold at the result buffer: the attention kernel's output array, of the three projection arrays
  recast to batches, each the projection kernel's output  X · Wᵀ  with  X  the input recast to rows.  Recasting
  [4, 4096, ·] to [16384, ·] and back moves no entry: row 4096·b + s of the one is row s of batch b of the other.  So the
  query, key and value arrays the attention kernel reads are the projections of the input, and the result's entry
  (b, s, h) is the tile-by-tile quotient over the scores  ⌊(q_s · k_j) · 2⁻³⌋  and the values  v_j[h]  of batch b.
-/
import proofs.«123220_j21371757264929_2_alg».proof.Proof.KernelRun
import proofs.«123220_j21371757264929_2_alg».proof.Proof.Spec
import proofs.«123220_j21371757264929_2_alg».proof.Proof.LibRowBlocks

set_option maxRecDepth 16384

noncomputable section

open scoped BigOperators

namespace Cert.KernelIdeal.KValue

open Idealize.ShloMosaic Idealize.ShloMosaic.ValueIdx Idealize.ShloMosaic.TcCoe Idealize.SL.Sem
open Cert.KernelIdeal Cert.KernelIdeal.Gen Cert.KernelIdeal.KRun Cert.KernelIdeal.Region0 Cert.KernelIdeal.Region1
open Cert.KernelIdeal.Attn Cert.Attn Cert.Attn.Online

/-- A projection array as the attention kernel finds it: X · Wᵀ of the input recast to rows, recast to batches. -/
def projArr (x : S4x4096x768.Idx → EReal) (w : S64x768.Idx → EReal) : S4x4096x64.Idx → EReal :=
  shapeCast S4x4096x64 (projRows (shapeCast S16384x768 x shapeCasts_S4x4096x768_S16384x768) w) shapeCasts_S16384x64_S4x4096x64

/-- The result array as a function of the four argument arrays. -/
def resultArr (x : S4x4096x768.Idx → EReal) (wq wk wv : S64x768.Idx → EReal) : S4x4096x64.Idx → EReal :=
  attnArr (projArr x wq) (projArr x wk) (projArr x wv)

variable (m : (ℓ : Loc nD τ sig) → Buf (Elt Ideal) ℓ) (ρ : Dev nD → PrngReg)

theorem query_arr (c : Dev nD) :
    V3 m ρ c main_v2 = projArr (m ((c : Thread nD τ).loc main_arg0)) (m ((c : Thread nD τ).loc main_arg1)) :=
  (entry_q m ρ c).trans (congrArg (fun z => shapeCast S4x4096x64 z shapeCasts_S16384x64_S4x4096x64)
    ((W2_arr m ρ c 4).trans ((Region0.final4 (V1 m ρ) c).trans (congrArg₂ projRows (entry_rows m ρ c) (entry_w1 m ρ c)))))

theorem key_arr (c : Dev nD) :
    V3 m ρ c main_v3 = projArr (m ((c : Thread nD τ).loc main_arg0)) (m ((c : Thread nD τ).loc main_arg2)) :=
  (entry_k m ρ c).trans (congrArg (fun z => shapeCast S4x4096x64 z shapeCasts_S16384x64_S4x4096x64)
    ((W2_arr m ρ c 5).trans ((Region0.final5 (V1 m ρ) c).trans (congrArg₂ projRows (entry_rows m ρ c) (entry_w2 m ρ c)))))

theorem value_arr (c : Dev nD) :
    V3 m ρ c main_v4 = projArr (m ((c : Thread nD τ).loc main_arg0)) (m ((c : Thread nD τ).loc main_arg3)) :=
  (entry_v m ρ c).trans (congrArg (fun z => shapeCast S4x4096x64 z shapeCasts_S16384x64_S4x4096x64)
    ((W2_arr m ρ c 6).trans ((Region0.final6 (V1 m ρ) c).trans (congrArg₂ projRows (entry_rows m ρ c) (entry_w3 m ρ c)))))

/-- The result buffer after the last segment. -/
theorem result_eq (c : Dev nD) :
    W4 m ρ c (Proc.devRef .tc main_v5)
      = resultArr (m ((c : Thread nD τ).loc main_arg0)) (m ((c : Thread nD τ).loc main_arg1))
          (m ((c : Thread nD τ).loc main_arg2)) (m ((c : Thread nD τ).loc main_arg3)) := by
  refine (W4_arr m ρ c 3).trans ((Region1.final (V3 m ρ) c).trans ?_)
  unfold resultArr
  rw [query_arr m ρ c, key_arr m ρ c, value_arr m ρ c]

/-- Entry (b, s, d) of a projection array is the projection's entry. -/
theorem projArr_apply (x : S4x4096x768.Idx → EReal) (w : S64x768.Idx → EReal) (b : Fin 4) (s : Fin 4096) (d : Fin 64) :
    projArr x w (ix3 b s d) = Spec.proj x w b s d := by
  have hR : b.val * 4096 + s.val < 16384 := by have := b.isLt; have := s.isLt; omega
  unfold projArr
  rw [Cert.Lib.RowBlocks.shapeCast_rows_split _ shapeCasts_S16384x64_S4x4096x64 b s d ⟨b.val * 4096 + s.val, hR⟩ rfl]
  unfold projRows Spec.proj
  refine Finset.sum_congr rfl fun e _ => ?_
  exact congrArg (· * w (ix2 d e))
    (Cert.Lib.RowBlocks.shapeCast_rows_merge x shapeCasts_S4x4096x768_S16384x768 b s e ⟨b.val * 4096 + s.val, hR⟩ rfl)

/-- The kernel's scores of query row (b, s): the product of projections times the word of 2⁻³, rounded down. -/
def kerScores (x : S4x4096x768.Idx → EReal) (wq wk : S64x768.Idx → EReal) (b : Fin 4) (s : Fin 4096) : Fin (8 * 512) → EReal :=
  fun j => Ideal.liftRound Int.floor
    ((∑ d : Fin 64, Spec.proj x wq b s d * Spec.proj x wk b j d) * Ideal.ofBits .f32 0x3E000000#32)

/-- The result's entry (b, s, h): the tile-by-tile quotient over the row's scores and the feature's values. -/
theorem result_apply (x : S4x4096x768.Idx → EReal) (wq wk wv : S64x768.Idx → EReal) (b : Fin 4) (s : Fin 4096) (h : Fin 64) :
    resultArr x wq wk wv (ix3 b s h)
      = Ideal.div (run 8 512 hpos (kerScores x wq wk b s) (fun j => Spec.proj x wv b j h) 8).2.2
          (run 8 512 hpos (kerScores x wq wk b s) (fun j => Spec.proj x wv b j h) 8).2.1 := by
  have hS : arrScores (projArr x wq) (projArr x wk) b s = kerScores x wq wk b s := by
    funext j
    unfold arrScores kerScores
    refine congrArg (fun z => Ideal.liftRound Int.floor (z * _)) (Finset.sum_congr rfl fun d _ => ?_)
    rw [projArr_apply, projArr_apply]
  have hV : arrValues (projArr x wv) b h = fun j => Spec.proj x wv b j h := by
    funext j
    unfold arrValues
    rw [projArr_apply]
  unfold resultArr attnArr
  show Ideal.div (run 8 512 hpos (arrScores (projArr x wq) (projArr x wk) b s) (arrValues (projArr x wv) b h) 8).2.2
      (run 8 512 hpos (arrScores (projArr x wq) (projArr x wk) b s) (arrValues (projArr x wv) b h) 8).2.1 = _
  rw [hS, hV]

end Cert.KernelIdeal.KValue

end
-- ==== Proof.RefRead.lean ====
/-
  The reference's result, entry by entry.

  The reference forms the three projections of the input, the scores of every query row against every key row (product
  of projections over the features, divided by 8, rounded down), subtracts from each row of scores its maximum, takes
  exponentials, divides each by its row's sum, and multiplies the resulting weights with the value projection.  Read at
  entry (b, i, h) this is the softmax-weighted sum over the key rows j of the value projection's entries (b, j, h),
  with the scores of query row i of batch b.
-/
import proofs.«123220_j21371757264929_2_alg».proof.Proof.Gen.ReferenceIdeal.Read
import proofs.«123220_j21371757264929_2_alg».proof.Proof.Spec
import proofs.«123220_j21371757264929_2_alg».proof.Proof.LibOnlineSoftmax

noncomputable section

open scoped BigOperators

namespace Cert.ReferenceIdeal.RefValue

open Idealize.ShloMosaic Idealize.ShloMosaic.ValueIdx Cert.ReferenceIdeal Cert.ReferenceIdeal.Gen Cert.ReferenceIdeal.Read
open Cert.Attn

/-- The three projections: entry (b, s, d) of the input against a weight matrix. -/
theorem proj_v0 (x0 : (⟨S4x4096x768, .f32⟩ : BufTy).Contents (Elt Ideal)) (x1 : (⟨S64x768, .f32⟩ : BufTy).Contents (Elt Ideal))
    (b : Fin 4) (s : Fin 4096) (d : Fin 64) :
    val_main_v0 (F := Ideal) x0 x1 (ix3 b s d) = Spec.proj x0 x1 b s d := by
  rw [val_main_v0_apply]
  unfold Spec.proj
  refine Finset.sum_congr rfl fun e _ => ?_
  have el : lidx_main_v0 (ix3 b s d) e = ix3 b s e :=
    funext fun a => Fin.ext (by match a with | ⟨0, _⟩ => rfl | ⟨1, _⟩ => rfl | ⟨2, _⟩ => rfl)
  have er : ridx_main_v0 (ix3 b s d) e = ix2 d e :=
    funext fun a => Fin.ext (by match a with | ⟨0, _⟩ => rfl | ⟨1, _⟩ => rfl)
  rw [el, er]

theorem proj_v1 (x0 : (⟨S4x4096x768, .f32⟩ : BufTy).Contents (Elt Ideal)) (x2 : (⟨S64x768, .f32⟩ : BufTy).Contents (Elt Ideal))
    (b : Fin 4) (s : Fin 4096) (d : Fin 64) :
    val_main_v1 (F := Ideal) x0 x2 (ix3 b s d) = Spec.proj x0 x2 b s d := proj_v0 x0 x2 b s d

theorem proj_v2 (x0 : (⟨S4x4096x768, .f32⟩ : BufTy).Contents (Elt Ideal)) (x3 : (⟨S64x768, .f32⟩ : BufTy).Contents (Elt Ideal))
    (b : Fin 4) (s : Fin 4096) (d : Fin 64) :
    val_main_v2 (F := Ideal) x0 x3 (ix3 b s d) = Spec.proj x0 x3 b s d := proj_v0 x0 x3 b s d

/-- The products of the query and key projections summed over the features. -/
theorem dots_v3 (x0 : (⟨S4x4096x768, .f32⟩ : BufTy).Contents (Elt Ideal)) (x1 x2 : (⟨S64x768, .f32⟩ : BufTy).Contents (Elt Ideal))
    (b : Fin 4) (i j : Fin 4096) :
    val_main_v3 (F := Ideal) x0 x1 x2 (ix3 b i j) = ∑ d : Fin 64, Spec.proj x0 x1 b i d * Spec.proj x0 x2 b j d := by
  rw [val_main_v3_apply]
  refine Finset.sum_congr rfl fun d _ => ?_
  have el : lidx_main_v3 (ix3 b i j) d = ix3 b i d :=
    funext fun a => Fin.ext (by match a with | ⟨0, _⟩ => rfl | ⟨1, _⟩ => rfl | ⟨2, _⟩ => rfl)
  have er : ridx_main_v3 (ix3 b i j) d = ix3 b j d :=
    funext fun a => Fin.ext (by match a with | ⟨0, _⟩ => rfl | ⟨1, _⟩ => rfl | ⟨2, _⟩ => rfl)
  rw [el, er, proj_v0, proj_v1]

/-- The scores: the quotient by the word of 8, rounded down. -/
theorem scores_v6 (x0 : (⟨S4x4096x768, .f32⟩ : BufTy).Contents (Elt Ideal)) (x1 x2 : (⟨S64x768, .f32⟩ : BufTy).Contents (Elt Ideal))
    (b : Fin 4) (i j : Fin 4096) :
    val_main_v6 (F := Ideal) x0 x1 x2 (ix3 b i j) = Spec.refScores x0 x1 x2 b i j := by
  rw [val_main_v6_apply, val_main_v5_apply, dots_v3, val_main_v4_apply, val_main_cst_apply]
  rfl

/-- The word of -∞. -/
theorem ofBits_neg_inf : Ideal.ofBits .f32 0xFF800000#32 = (⊥ : EReal) := by simp [Ideal.ofBits, Ideal.ieee]

/-- The row maximum, from -∞: the fold of `max` over the scores of the row. -/
theorem rowmax_v7 (x0 : (⟨S4x4096x768, .f32⟩ : BufTy).Contents (Elt Ideal)) (x1 x2 : (⟨S64x768, .f32⟩ : BufTy).Contents (Elt Ideal))
    (b : Fin 4) (i : Fin 4096) :
    val_main_v7 (F := Ideal) x0 x1 x2 (ix2 b i)
      = (Finset.univ : Finset (Fin 4096)).fold max (⊥ : EReal) (Spec.refScores x0 x1 x2 b i) := by
  have hred : S4x4096x4096.Reduces [2] S4x4096 := by decide
  unfold val_main_v7
  rw [Host.reduce_eq_fold_single FloatOps.maximumf _ _ reducesTo_S4x4096x4096_S4x4096_d2 hred h_S_]
  have hf : (val_main_v6 (F := Ideal) x0 x1 x2 ∘ hred.lift (ix2 b i)) = Spec.refScores x0 x1 x2 b i :=
    funext fun k => by
      have e : hred.lift (ix2 b i) k = ix3 b i (⟨k.val, k.isLt⟩ : Fin 4096) :=
        funext fun c => Fin.ext (by match c with | ⟨0, _⟩ => rfl | ⟨1, _⟩ => rfl | ⟨2, _⟩ => rfl)
      show val_main_v6 (F := Ideal) x0 x1 x2 (hred.lift (ix2 b i) k) = _
      rw [e, scores_v6]
      rfl
  rw [hf, val_main_cst_0_apply, Ideal.ofBits_def, ofBits_neg_inf]
  rfl

/-- The maximum the scores are taken relative to: the row maximum, against -∞ once more. -/
theorem max_v9 (x0 : (⟨S4x4096x768, .f32⟩ : BufTy).Contents (Elt Ideal)) (x1 x2 : (⟨S64x768, .f32⟩ : BufTy).Contents (Elt Ideal))
    (b : Fin 4) (i : Fin 4096) :
    val_main_v9 (F := Ideal) x0 x1 x2 (ix2 b i) = max ⊥ ((Finset.univ : Finset (Fin 4096)).fold max (⊥ : EReal) (Spec.refScores x0 x1 x2 b i)) := by
  rw [val_main_v9_apply, val_main_v8_apply, val_main_cst_1_apply, rowmax_v7, Ideal.ofBits_def, ofBits_neg_inf,
    Ideal.maximumf_def]

/-- The same, spread along the row. -/
theorem max_v11 (x0 : (⟨S4x4096x768, .f32⟩ : BufTy).Contents (Elt Ideal)) (x1 x2 : (⟨S64x768, .f32⟩ : BufTy).Contents (Elt Ideal))
    (b : Fin 4) (i j : Fin 4096) :
    val_main_v11 (F := Ideal) x0 x1 x2 (ix3 b i j) = max ⊥ ((Finset.univ : Finset (Fin 4096)).fold max (⊥ : EReal) (Spec.refScores x0 x1 x2 b i)) := by
  rw [val_main_v11_apply, val_main_v10_apply]
  have e : idx_main_v10 (idx_main_v11 (ix3 b i j)) = ix2 b i :=
    funext fun a => Fin.ext (by match a with | ⟨0, _⟩ => rfl | ⟨1, _⟩ => rfl)
  rw [e, max_v9]

/-- The exponential of each score relative to the maximum. -/
theorem exp_v13 (x0 : (⟨S4x4096x768, .f32⟩ : BufTy).Contents (Elt Ideal)) (x1 x2 : (⟨S64x768, .f32⟩ : BufTy).Contents (Elt Ideal))
    (b : Fin 4) (i j : Fin 4096) :
    val_main_v13 (F := Ideal) x0 x1 x2 (ix3 b i j) = Ideal.exp (Spec.refScores x0 x1 x2 b i j - max ⊥ ((Finset.univ : Finset (Fin 4096)).fold max (⊥ : EReal) (Spec.refScores x0 x1 x2 b i))) := by
  rw [val_main_v13_apply, val_main_v12_apply, scores_v6, max_v11, Ideal.subf_def, Ideal.hostUnary_exp_def]

/-- The normalising sum of the row, from 0. -/
theorem sum_v14 (x0 : (⟨S4x4096x768, .f32⟩ : BufTy).Contents (Elt Ideal)) (x1 x2 : (⟨S64x768, .f32⟩ : BufTy).Contents (Elt Ideal))
    (b : Fin 4) (i : Fin 4096) :
    val_main_v14 (F := Ideal) x0 x1 x2 (ix2 b i)
      = 0 + ∑ j' : Fin 4096, Ideal.exp (Spec.refScores x0 x1 x2 b i j' - max ⊥ ((Finset.univ : Finset (Fin 4096)).fold max (⊥ : EReal) (Spec.refScores x0 x1 x2 b i))) := by
  rw [val_main_v14_apply, val_main_cst_2_apply, Ideal.ofBits_def, Ideal.ofBits_zero_f32]
  refine congrArg (_ + ·) (Finset.sum_congr rfl fun k _ => ?_)
  have e : idx_main_v14 (ix2 b i) k = ix3 b i k :=
    funext fun a => Fin.ext (by match a with | ⟨0, _⟩ => rfl | ⟨1, _⟩ => rfl | ⟨2, _⟩ => rfl)
  rw [e, exp_v13]

/-- The same, spread along the row. -/
theorem sum_v16 (x0 : (⟨S4x4096x768, .f32⟩ : BufTy).Contents (Elt Ideal)) (x1 x2 : (⟨S64x768, .f32⟩ : BufTy).Contents (Elt Ideal))
    (b : Fin 4) (i j : Fin 4096) :
    val_main_v16 (F := Ideal) x0 x1 x2 (ix3 b i j)
      = 0 + ∑ j' : Fin 4096, Ideal.exp (Spec.refScores x0 x1 x2 b i j' - max ⊥ ((Finset.univ : Finset (Fin 4096)).fold max (⊥ : EReal) (Spec.refScores x0 x1 x2 b i))) := by
  rw [val_main_v16_apply, val_main_v15_apply]
  have e : idx_main_v15 (idx_main_v16 (ix3 b i j)) = ix2 b i :=
    funext fun a => Fin.ext (by match a with | ⟨0, _⟩ => rfl | ⟨1, _⟩ => rfl)
  rw [e, sum_v14]

/-- The weights: each exponential divided by its row's sum. -/
theorem weight_v17 (x0 : (⟨S4x4096x768, .f32⟩ : BufTy).Contents (Elt Ideal)) (x1 x2 : (⟨S64x768, .f32⟩ : BufTy).Contents (Elt Ideal))
    (b : Fin 4) (i j : Fin 4096) :
    val_main_v17 (F := Ideal) x0 x1 x2 (ix3 b i j)
      = Ideal.div (Ideal.exp (Spec.refScores x0 x1 x2 b i j - max ⊥ ((Finset.univ : Finset (Fin 4096)).fold max (⊥ : EReal) (Spec.refScores x0 x1 x2 b i))))
          (0 + ∑ j' : Fin 4096, Ideal.exp (Spec.refScores x0 x1 x2 b i j' - max ⊥ ((Finset.univ : Finset (Fin 4096)).fold max (⊥ : EReal) (Spec.refScores x0 x1 x2 b i)))) := by
  rw [val_main_v17_apply, exp_v13, sum_v16, Ideal.hostDivf_def]

/-- The reference's result at entry (b, i, h). -/
theorem ref_apply (x0 : (⟨S4x4096x768, .f32⟩ : BufTy).Contents (Elt Ideal)) (x1 x2 x3 : (⟨S64x768, .f32⟩ : BufTy).Contents (Elt Ideal))
    (b : Fin 4) (i : Fin 4096) (h : Fin 64) :
    val_main_v18 x0 x1 x2 x3 (ix3 b i h)
      = Online.softmaxSum (Spec.refScores x0 x1 x2 b i) (fun j => Spec.proj x0 x3 b j h) := by
  rw [val_main_v18_apply]
  unfold Online.softmaxSum
  refine Finset.sum_congr rfl fun k _ => ?_
  have el : lidx_main_v18 (ix3 b i h) k = ix3 b i k :=
    funext fun a => Fin.ext (by match a with | ⟨0, _⟩ => rfl | ⟨1, _⟩ => rfl | ⟨2, _⟩ => rfl)
  have er : ridx_main_v18 (ix3 b i h) k = ix3 b k h :=
    funext fun a => Fin.ext (by match a with | ⟨0, _⟩ => rfl | ⟨1, _⟩ => rfl | ⟨2, _⟩ => rfl)
  rw [el, er, weight_v17, proj_v2]

end Cert.ReferenceIdeal.RefValue

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«123220_j21371757264929_2_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.Finite.lean ====
/-
  Under the precondition every entry of the four argument arrays is a real number.

  The precondition is the conjunction of four tests, one per argument array, each "all entries have absolute value below
  +∞".  When the conjunction is 1 each of the four tests is 1, and a test that is 1 says every entry of its array is the
  image of a real number.
-/
import proofs.«123220_j21371757264929_2_alg».proof.Pre_finite_inputs
import proofs.«123220_j21371757264929_2_alg».proof.Proof.Gen.Pre_finite_inputs
import proofs.«123220_j21371757264929_2_alg».proof.Proof.LibFiniteInputs

noncomputable section

namespace Cert.Finite

open Idealize.ShloMosaic Idealize.ShloMosaic.ValueIdx Cert.RealValued Cert.Lib.FiniteInputs
open Cert.Pre_finite_inputs Cert.Pre_finite_inputs.Gen

/-- The four argument arrays hold reals when the precondition's value is 1. -/
theorem inputs_real (a0 : FVec Ideal S4x4096x768 .f32) (a1 a2 a3 : FVec Ideal S64x768 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, h1⟩ := IntOp.andi_eq_one.1 h01
  exact ⟨all_lt_inf a0 _ _ _ ix0 hx, all_lt_inf a1 _ _ _ ix0 h1, all_lt_inf a2 _ _ _ ix0 h2, all_lt_inf a3 _ _ _ ix0 h3⟩

end Cert.Finite

end
-- ==== Proof.Bridge.lean ====
/-
  The two programs compute the same array.

  Kernel and reference form the same scores: the kernel multiplies the product of projections by the single-precision
  word of 2⁻³, the reference divides it by the word of 8, and on the extended reals dividing by the real 8 is multiplying
  by the real 1/8, whatever the dividend.  Under the precondition every entry of the four argument arrays is a real, so
  every projection, every product of projections summed over the features, every score (a real rounded down) and
  every value is a real; on reals the tile-by-tile quotient is the softmax-weighted sum, which is what the reference
  computes entry by entry.
-/
import proofs.«123220_j21371757264929_2_alg».proof.Proof.KernelValue
import proofs.«123220_j21371757264929_2_alg».proof.Proof.RefRead
import proofs.«123220_j21371757264929_2_alg».proof.Proof.Finite
import proofs.«123220_j21371757264929_2_alg».proof.Proof.LibRealOrder

noncomputable section

open scoped BigOperators

namespace Cert.Attn.Bridge

open Idealize.ShloMosaic Idealize.ShloMosaic.ValueIdx Cert.RealValued Cert.Attn Cert.Attn.Online
open Cert.KernelIdeal.KValue

/-- The single-precision word 0x3E000000 denotes 1/8. -/
theorem word_eighth : Ideal.ofBits .f32 0x3E000000#32 = ((1 / 8 : ℝ) : EReal) := by
  simp [Ideal.ofBits, Ideal.ieee]
  rw [← EReal.coe_mul]
  exact congrArg _ (by norm_num)

/-- The single-precision word 0x41000000 denotes 8. -/
theorem word_eight : Ideal.ofBits .f32 0x41000000#32 = ((8 : ℝ) : EReal) := by
  simp [Ideal.ofBits, Ideal.ieee]
  rw [← EReal.coe_mul]
  exact congrArg _ (by norm_num)

/-- The kernel's scores are the reference's: times 2⁻³ is divided by 8. -/
theorem scores_agree (x : (⟨3, ![4, 4096, 768]⟩ : Shape).Idx → EReal) (wq wk : (⟨2, ![64, 768]⟩ : Shape).Idx → EReal)
    (b : Fin 4) (s : Fin 4096) : kerScores x wq wk b s = Spec.refScores x wq wk b s := by
  funext j
  unfold kerScores Spec.refScores
  rw [word_eighth, word_eight, Ideal.div_coe (by norm_num : (8 : ℝ) ≠ 0)]

/-- A projection of real arrays is real. -/
theorem isReal_proj (x : (⟨3, ![4, 4096, 768]⟩ : Shape).Idx → EReal) (w : (⟨2, ![64, 768]⟩ : Shape).Idx → EReal)
    (hx : ∀ i, IsReal (x i)) (hw : ∀ i, IsReal (w i)) (b : Fin 4) (s : Fin 4096) (d : Fin 64) : IsReal (Spec.proj x w b s d) :=
  isReal_sum _ _ fun e _ => (hx _).mul (hw _)

/-- A score of real arrays is real: a real divided by 8 and rounded down. -/
theorem isReal_refScores (x : (⟨3, ![4, 4096, 768]⟩ : Shape).Idx → EReal) (wq wk : (⟨2, ![64, 768]⟩ : Shape).Idx → EReal)
    (hx : ∀ i, IsReal (x i)) (hq : ∀ i, IsReal (wq i)) (hk : ∀ i, IsReal (wk i)) (b : Fin 4) (s j : Fin 4096) :
    IsReal (Spec.refScores x wq wk b s j) := by
  unfold Spec.refScores
  rw [word_eight, Ideal.div_coe (by norm_num : (8 : ℝ) ≠ 0)]
  obtain ⟨r, hr⟩ := (isReal_sum Finset.univ (fun d : Fin 64 => Spec.proj x wq b s d * Spec.proj x wk b j d)
    (fun d _ => (isReal_proj x wq hx hq b s d).mul (isReal_proj x wk hx hk b j d))).mul (isReal_coe (1 / 8))
  rw [hr]
  exact ⟨_, Ideal.liftRound_coe _ _⟩

/-- On real arrays the kernel's result array is the reference's, entry by entry. -/
theorem result_eq_reference (x : (⟨3, ![4, 4096, 768]⟩ : Shape).Idx → EReal) (wq wk wv : (⟨2, ![64, 768]⟩ : Shape).Idx → EReal)
    (hx : ∀ i, IsReal (x i)) (hq : ∀ i, IsReal (wq i)) (hk : ∀ i, IsReal (wk i)) (hv : ∀ i, IsReal (wv i)) :
    resultArr x wq wk wv = Cert.ReferenceIdeal.Read.val_main_v18 (F := Ideal) x wq wk wv := by
  funext i
  obtain ⟨b, s, h, rfl⟩ : ∃ (b : Fin 4) (s : Fin 4096) (h : Fin 64), i = ix3 b s h := ⟨i 0, i 1, i 2, eq_ix3 i⟩
  rw [result_apply, Cert.ReferenceIdeal.RefValue.ref_apply, scores_agree]
  exact online_eq_softmax 8 512 (by decide) (by decide) _ _
    (fun j => isReal_refScores x wq wk hx hq hk b s j) (fun j => isReal_proj x wv hx hv b j h)

end Cert.Attn.Bridge

end
-- ==== Proof.lean ====
/-
  Single-head attention with rounded-down scores: a tiled kernel against the plain formula.

  Input  x : [4, 4096, 768]  and three weight matrices  Wq, Wk, Wv : [64, 768] .  Both programs form the projections
  q = x · Wqᵀ ,  k = x · Wkᵀ ,  v = x · Wvᵀ  (each [4, 4096, 64]) and, per batch, the scores
  s(i, j) = ⌊(q_i · k_j) / 8⌋  of every query row against every key row; the result's row i is the softmax of row i of
  the scores applied to the value rows:  Σ_j (exp (s(i,j) - M_i) / Σ_j' exp (s(i,j') - M_i)) · v_j  with  M_i  the
  row's largest score.

  The reference computes exactly this, one whole-array operation after another.  The kernel computes the projections
  in blocks of 1024 rows, then, for blocks of 512 query rows, walks over the keys in eight tiles of 512 keeping a
  running maximum, a running sum of exponentials and a running weighted sum of value rows, rescaling the two sums
  whenever the maximum grows, and divides at the end; it scales the scores by the word of 2⁻³ where the reference divides
  by the word of 8.  On the extended reals the two agree under the precondition (every input entry finite): the blocks
  tile the arrays, times 1/8 is divided by 8, and on real numbers the tile-by-tile quotient is the softmax-weighted sum.
  Finiteness is used: the rescaling identity  exp (s - M) · exp (M - M') = exp (s - M')  and the exchange of the final
  division with the sum are laws of real numbers, not of the infinities.

  The three frames: the two kernel programs' launches over their four segments (input recast, projection kernel,
  three recasts, attention kernel) with both kernel bodies run symbolically are the generated modules'; the
  reference's frame is its run with the result forgotten.  Nothing of the kernel was rewritten for the idealized
  reading, so that conjunct is trivial.
-/
import proofs.«123220_j21371757264929_2_alg».proof.Defs
import proofs.«123220_j21371757264929_2_alg».proof.Proof.Gen.Kernel
import proofs.«123220_j21371757264929_2_alg».proof.Proof.Gen.Kernel.Skeleton
import proofs.«123220_j21371757264929_2_alg».proof.Proof.Gen.Kernel.Launch
import proofs.«123220_j21371757264929_2_alg».proof.Proof.Gen.Kernel.Points
import proofs.«123220_j21371757264929_2_alg».proof.Proof.Gen.Kernel.Frame
import proofs.«123220_j21371757264929_2_alg».proof.Proof.Gen.KernelIdeal
import proofs.«123220_j21371757264929_2_alg».proof.Proof.Gen.KernelIdeal.Skeleton
import proofs.«123220_j21371757264929_2_alg».proof.Proof.Gen.KernelIdeal.Launch
import proofs.«123220_j21371757264929_2_alg».proof.Proof.Gen.KernelIdeal.Points
import proofs.«123220_j21371757264929_2_alg».proof.Proof.Gen.KernelIdeal.Frame
import proofs.«123220_j21371757264929_2_alg».proof.Proof.Gen.ReferenceIdeal
import proofs.«123220_j21371757264929_2_alg».proof.Proof.Gen.Pre_finite_inputs
import proofs.«123220_j21371757264929_2_alg».proof.Proof.Gen.ReferenceIdeal.Read
import proofs.«123220_j21371757264929_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- From memories agreeing on the four arguments, both programs end with the same result array: the kernel's is the
    tile-by-tile function of its arguments, the reference's the plain formula of its own, and under the precondition the
    two functions agree on real-valued arguments. -/
theorem algebraic : Cert.algebraic_KernelIdeal_ReferenceIdeal := by
  intro m ρ m' ρ' hpre hagree
  refine ⟨fun c => Cert.KernelIdeal.KValue.resultArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.KRun.run_all (F := Ideal) m ρ)
    exact ⟨(h c _ (Cert.KernelIdeal.Gen.mem_uc Cert.KernelIdeal.main_v5 (by decide))).trans (Cert.KernelIdeal.KValue.result_eq m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c)⟩
  · refine (θ_run Cert.ReferenceIdeal.defs _ _).mono (fun r h c => ⟨?_, (h c).2⟩)
      (Cert.ReferenceIdeal.Value.run (F := Ideal) m' ρ')
    obtain ⟨hx, hq, hk, hv⟩ := Cert.Finite.inputs_real _ _ _ _ (hpre c)
    refine (h c).1.trans ((Cert.ReferenceIdeal.Read.val_main_v18_eq (F := Ideal) _ _ _ _).trans ?_)
    rw [(hagree c).1, (hagree c).2.1, (hagree c).2.2.1, (hagree c).2.2.2]
    exact (Cert.Attn.Bridge.result_eq_reference _ _ _ _ hx hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
